-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32736 : Shape := ⟨2, ![4096, 32736]⟩
abbrev S_ : Shape := ⟨0, ![]⟩

class Facts : Prop where
  bcast_S_S4096x32736 : S_.BroadcastsInDim S4096x32736 (![] : Fin 0 → Fin S4096x32736.rank)
  reducesTo_S4096x32736_S_d0_1 : S4096x32736.ReducesTo [0, 1] S_
  h_S_ : 0 < S_.numel

variable [Facts]

def fn {F : FTy → Type} [FloatOps F] (main_arg0 : FVec F S4096x32736 .f32) : IVec S_ 1 :=
  let main_v0 : FVec F S4096x32736 .f32 := Host.absf main_arg0
  let main_cst : FVec F S_ .f32 := constant S_ .f32 0x7F800000#32
  let main_v1 : FVec F S4096x32736 .f32 := broadcastInDim S4096x32736 ![] bcast_S_S4096x32736 main_cst
  let main_v2 : IVec S4096x32736 1 := cmpf .olt main_v0 main_v1
  let main_c : IVec S_ 1 := constantI S_ 1 1#1
  let main_v3 : IVec S_ 1 := (fun x v => Host.reduce IntOp.andi x v reducesTo_S4096x32736_S_d0_1 h_S_) main_v2 main_c
  main_v3
-- ==== Kernel.lean ====
abbrev S4096x32736 : Shape := ⟨2, ![4096, 32736]⟩
abbrev S4096x32 : Shape := ⟨2, ![4096, 32]⟩
abbrev S8x32736 : Shape := ⟨2, ![8, 32736]⟩
abbrev S8x32 : Shape := ⟨2, ![8, 32]⟩
abbrev S8x32x1023 : Shape := ⟨3, ![8, 32, 1023]⟩
abbrev S8x32x1 : Shape := ⟨3, ![8, 32, 1]⟩
abbrev S8x32x1x1 : Shape := ⟨4, ![8, 32, 1, 1]⟩
abbrev S8x32x1x2 : Shape := ⟨4, ![8, 32, 1, 2]⟩
abbrev S8x32x2 : Shape := ⟨3, ![8, 32, 2]⟩
abbrev S8x32x2x1 : Shape := ⟨4, ![8, 32, 2, 1]⟩
abbrev S8x32x2x2 : Shape := ⟨4, ![8, 32, 2, 2]⟩
abbrev S8x32x4 : Shape := ⟨3, ![8, 32, 4]⟩
abbrev S8x32x4x1 : Shape := ⟨4, ![8, 32, 4, 1]⟩
abbrev S8x32x4x2 : Shape := ⟨4, ![8, 32, 4, 2]⟩
abbrev S8x32x8 : Shape := ⟨3, ![8, 32, 8]⟩
abbrev S8x32x8x1 : Shape := ⟨4, ![8, 32, 8, 1]⟩
abbrev S8x32x8x2 : Shape := ⟨4, ![8, 32, 8, 2]⟩
abbrev S8x32x16 : Shape := ⟨3, ![8, 32, 16]⟩
abbrev S8x32x16x1 : Shape := ⟨4, ![8, 32, 16, 1]⟩
abbrev S8x32x16x2 : Shape := ⟨4, ![8, 32, 16, 2]⟩
abbrev S8x32x32 : Shape := ⟨3, ![8, 32, 32]⟩
abbrev S8x32x32x1 : Shape := ⟨4, ![8, 32, 32, 1]⟩
abbrev S8x32x32x2 : Shape := ⟨4, ![8, 32, 32, 2]⟩
abbrev S8x32x64 : Shape := ⟨3, ![8, 32, 64]⟩
abbrev S8x32x64x1 : Shape := ⟨4, ![8, 32, 64, 1]⟩
abbrev S8x32x64x2 : Shape := ⟨4, ![8, 32, 64, 2]⟩
abbrev S8x32x128 : Shape := ⟨3, ![8, 32, 128]⟩
abbrev S8x32x128x1 : Shape := ⟨4, ![8, 32, 128, 1]⟩
abbrev S8x32x128x2 : Shape := ⟨4, ![8, 32, 128, 2]⟩
abbrev S8x32x256 : Shape := ⟨3, ![8, 32, 256]⟩
abbrev S8x32x256x1 : Shape := ⟨4, ![8, 32, 256, 1]⟩
abbrev S8x32x256x2 : Shape := ⟨4, ![8, 32, 256, 2]⟩
abbrev S8x32x512 : Shape := ⟨3, ![8, 32, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x32736, .f32⟩
  | .hbm, ⟨1, _⟩ => ⟨S4096x32, .f32⟩
  | .local _ .vmem, ⟨0, _⟩ => ⟨S8x32736, .f32⟩
  | .local _ .vmem, ⟨1, _⟩ => ⟨S8x32736, .f32⟩
  | .local _ .vmem, ⟨2, _⟩ => ⟨S8x32, .f32⟩
  | .local _ .vmem, ⟨3, _⟩ => ⟨S8x32, .f32⟩
  | _, _ => ⟨S4096x32736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32736 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x32736_S8x32736_0_0 : ∀ a, (![0, 0] : Fin 2 → Nat) a + S8x32736.size a ≤ S8x32736.size a
  h_S8x32736 : 0 < S8x32736.numel
  shapeCasts_S8x32736_S8x32x1023 : S8x32736.ShapeCasts S8x32x1023
  slices_S8x32x1023_o0_0_0_S8x32x1 : S8x32x1023.Slices ![0, 0, 0] S8x32x1
  shapeCasts_S8x32x1_S8x32x1x1 : S8x32x1.ShapeCasts S8x32x1x1
  concatenates_S8x32x1x1_S8x32x1x1_S8x32x1x2_d3 : Shape.Concatenates [S8x32x1x1, S8x32x1x1] S8x32x1x2 3
  shapeCasts_S8x32x1x2_S8x32x2 : S8x32x1x2.ShapeCasts S8x32x2
  slices_S8x32x1023_o0_0_1_S8x32x2 : S8x32x1023.Slices ![0, 0, 1] S8x32x2
  shapeCasts_S8x32x2_S8x32x2x1 : S8x32x2.ShapeCasts S8x32x2x1
  concatenates_S8x32x2x1_S8x32x2x1_S8x32x2x2_d3 : Shape.Concatenates [S8x32x2x1, S8x32x2x1] S8x32x2x2 3
  shapeCasts_S8x32x2x2_S8x32x4 : S8x32x2x2.ShapeCasts S8x32x4
  slices_S8x32x1023_o0_0_3_S8x32x4 : S8x32x1023.Slices ![0, 0, 3] S8x32x4
  shapeCasts_S8x32x4_S8x32x4x1 : S8x32x4.ShapeCasts S8x32x4x1
  concatenates_S8x32x4x1_S8x32x4x1_S8x32x4x2_d3 : Shape.Concatenates [S8x32x4x1, S8x32x4x1] S8x32x4x2 3
  shapeCasts_S8x32x4x2_S8x32x8 : S8x32x4x2.ShapeCasts S8x32x8
  slices_S8x32x1023_o0_0_7_S8x32x8 : S8x32x1023.Slices ![0, 0, 7] S8x32x8
  shapeCasts_S8x32x8_S8x32x8x1 : S8x32x8.ShapeCasts S8x32x8x1
  concatenates_S8x32x8x1_S8x32x8x1_S8x32x8x2_d3 : Shape.Concatenates [S8x32x8x1, S8x32x8x1] S8x32x8x2 3
  shapeCasts_S8x32x8x2_S8x32x16 : S8x32x8x2.ShapeCasts S8x32x16
  slices_S8x32x1023_o0_0_15_S8x32x16 : S8x32x1023.Slices ![0, 0, 15] S8x32x16
  shapeCasts_S8x32x16_S8x32x16x1 : S8x32x16.ShapeCasts S8x32x16x1
  concatenates_S8x32x16x1_S8x32x16x1_S8x32x16x2_d3 : Shape.Concatenates [S8x32x16x1, S8x32x16x1] S8x32x16x2 3
  shapeCasts_S8x32x16x2_S8x32x32 : S8x32x16x2.ShapeCasts S8x32x32
  slices_S8x32x1023_o0_0_31_S8x32x32 : S8x32x1023.Slices ![0, 0, 31] S8x32x32
  shapeCasts_S8x32x32_S8x32x32x1 : S8x32x32.ShapeCasts S8x32x32x1
  concatenates_S8x32x32x1_S8x32x32x1_S8x32x32x2_d3 : Shape.Concatenates [S8x32x32x1, S8x32x32x1] S8x32x32x2 3
  shapeCasts_S8x32x32x2_S8x32x64 : S8x32x32x2.ShapeCasts S8x32x64
  slices_S8x32x1023_o0_0_63_S8x32x64 : S8x32x1023.Slices ![0, 0, 63] S8x32x64
  shapeCasts_S8x32x64_S8x32x64x1 : S8x32x64.ShapeCasts S8x32x64x1
  concatenates_S8x32x64x1_S8x32x64x1_S8x32x64x2_d3 : Shape.Concatenates [S8x32x64x1, S8x32x64x1] S8x32x64x2 3
  shapeCasts_S8x32x64x2_S8x32x128 : S8x32x64x2.ShapeCasts S8x32x128
  slices_S8x32x1023_o0_0_127_S8x32x128 : S8x32x1023.Slices ![0, 0, 127] S8x32x128
  shapeCasts_S8x32x128_S8x32x128x1 : S8x32x128.ShapeCasts S8x32x128x1
  concatenates_S8x32x128x1_S8x32x128x1_S8x32x128x2_d3 : Shape.Concatenates [S8x32x128x1, S8x32x128x1] S8x32x128x2 3
  shapeCasts_S8x32x128x2_S8x32x256 : S8x32x128x2.ShapeCasts S8x32x256
  slices_S8x32x1023_o0_0_255_S8x32x256 : S8x32x1023.Slices ![0, 0, 255] S8x32x256
  shapeCasts_S8x32x256_S8x32x256x1 : S8x32x256.ShapeCasts S8x32x256x1
  concatenates_S8x32x256x1_S8x32x256x1_S8x32x256x2_d3 : Shape.Concatenates [S8x32x256x1, S8x32x256x1] S8x32x256x2 3
  shapeCasts_S8x32x256x2_S8x32x512 : S8x32x256x2.ShapeCasts S8x32x512
  slices_S8x32x1023_o0_0_511_S8x32x512 : S8x32x1023.Slices ![0, 0, 511] S8x32x512
  reduces_S8x32x512_S8x32 : S8x32x512.Reduces [2] S8x32
  inb_S8x32_S8x32_0_0 : ∀ a, (![0, 0] : Fin 2 → Nat) a + S8x32.size a ≤ S8x32.size a
  h_S8x32 : 0 < S8x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32736.size a ≤ S4096x32736.size a
  hwx0_0 : ∀ i : grid0.Coords, EltTy.bits .f32 = 32 ∨ (Rect.block (s := S4096x32736) S8x32736.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32.size a ≤ S4096x32.size a
  hwx0_1 : ∀ i : grid0.Coords, EltTy.bits .f32 = 32 ∨ (Rect.block (s := S4096x32) S8x32.size (cc0_transform_1 i) (hinb0_1 i)).WholeWords (EltTy.packing .f32)

variable [Facts₀]

abbrev win0_0 : Pipeline.Window sig grid0 :=
  Pipeline.Window.ofSpec (Memref.whole main_arg0) S8x32736.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x32736 : Shape := ⟨2, ![4096, 32736]⟩
abbrev S4096x32x1023 : Shape := ⟨3, ![4096, 32, 1023]⟩
abbrev S4096x32x1 : Shape := ⟨3, ![4096, 32, 1]⟩
abbrev S_ : Shape := ⟨0, ![]⟩
abbrev S4096x32x1x1 : Shape := ⟨4, ![4096, 32, 1, 1]⟩
abbrev S4096x32x1x2 : Shape := ⟨4, ![4096, 32, 1, 2]⟩
abbrev S4096x32x2 : Shape := ⟨3, ![4096, 32, 2]⟩
abbrev S4096x32x2x1 : Shape := ⟨4, ![4096, 32, 2, 1]⟩
abbrev S4096x32x2x2 : Shape := ⟨4, ![4096, 32, 2, 2]⟩
abbrev S4096x32x4 : Shape := ⟨3, ![4096, 32, 4]⟩
abbrev S4096x32x4x1 : Shape := ⟨4, ![4096, 32, 4, 1]⟩
abbrev S4096x32x4x2 : Shape := ⟨4, ![4096, 32, 4, 2]⟩
abbrev S4096x32x8 : Shape := ⟨3, ![4096, 32, 8]⟩
abbrev S4096x32x8x1 : Shape := ⟨4, ![4096, 32, 8, 1]⟩
abbrev S4096x32x8x2 : Shape := ⟨4, ![4096, 32, 8, 2]⟩
abbrev S4096x32x16 : Shape := ⟨3, ![4096, 32, 16]⟩
abbrev S4096x32x16x1 : Shape := ⟨4, ![4096, 32, 16, 1]⟩
abbrev S4096x32x16x2 : Shape := ⟨4, ![4096, 32, 16, 2]⟩
abbrev S4096x32x32 : Shape := ⟨3, ![4096, 32, 32]⟩
abbrev S4096x32x32x1 : Shape := ⟨4, ![4096, 32, 32, 1]⟩
abbrev S4096x32x32x2 : Shape := ⟨4, ![4096, 32, 32, 2]⟩
abbrev S4096x32x64 : Shape := ⟨3, ![4096, 32, 64]⟩
abbrev S4096x32x64x1 : Shape := ⟨4, ![4096, 32, 64, 1]⟩
abbrev S4096x32x64x2 : Shape := ⟨4, ![4096, 32, 64, 2]⟩
abbrev S4096x32x128 : Shape := ⟨3, ![4096, 32, 128]⟩
abbrev S4096x32x128x1 : Shape := ⟨4, ![4096, 32, 128, 1]⟩
abbrev S4096x32x128x2 : Shape := ⟨4, ![4096, 32, 128, 2]⟩
abbrev S4096x32x256 : Shape := ⟨3, ![4096, 32, 256]⟩
abbrev S4096x32x256x1 : Shape := ⟨4, ![4096, 32, 256, 1]⟩
abbrev S4096x32x256x2 : Shape := ⟨4, ![4096, 32, 256, 2]⟩
abbrev S4096x32x512 : Shape := ⟨3, ![4096, 32, 512]⟩
abbrev S4096x32x512x1 : Shape := ⟨4, ![4096, 32, 512, 1]⟩
abbrev S4096x32x512x2 : Shape := ⟨4, ![4096, 32, 512, 2]⟩
abbrev S4096x32x1024 : Shape := ⟨3, ![4096, 32, 1024]⟩
abbrev S4096x32 : Shape := ⟨2, ![4096, 32]⟩

abbrev nBuf : Space → Nat
  | .hbm => 229
  | .vmem => 0
  | .smem => 0
  | _ => 0

abbrev hbmTy0_0 (i : Nat) : BufTy := match i % 128 with
  | 0 => ⟨S4096x32736, .f32⟩
  | 1 => ⟨S4096x32x1023, .f32⟩
  | 2 => ⟨S4096x32x1, .f32⟩
  | 3 => ⟨S_, .f32⟩
  | 4 => ⟨S4096x32x1, .f32⟩
  | 5 => ⟨S4096x32x1, .f32⟩
  | 6 => ⟨S_, .f32⟩
  | 7 => ⟨S4096x32x1, .f32⟩
  | 8 => ⟨S4096x32x1, .f32⟩
  | 9 => ⟨S4096x32x1, .f32⟩
  | 10 => ⟨S4096x32x1, .f32⟩
  | 11 => ⟨S_, .f32⟩
  | 12 => ⟨S4096x32x1, .f32⟩
  | 13 => ⟨S4096x32x1, .f32⟩
  | 14 => ⟨S_, .f32⟩
  | 15 => ⟨S4096x32x1, .f32⟩
  | 16 => ⟨S4096x32x1, .f32⟩
  | 17 => ⟨S_, .f32⟩
  | 18 => ⟨S4096x32x1, .f32⟩
  | 19 => ⟨S4096x32x1, .f32⟩
  | 20 => ⟨S4096x32x1x1, .f32⟩
  | 21 => ⟨S4096x32x1x1, .f32⟩
  | 22 => ⟨S4096x32x1x2, .f32⟩
  | 23 => ⟨S4096x32x1x1, .f32⟩
  | 24 => ⟨S4096x32x1x2, .f32⟩
  | 25 => ⟨S4096x32x1x2, .f32⟩
  | 26 => ⟨S4096x32x2, .f32⟩
  | 27 => ⟨S4096x32x2, .f32⟩
  | 28 => ⟨S_, .f32⟩
  | 29 => ⟨S4096x32x2, .f32⟩
  | 30 => ⟨S4096x32x2, .f32⟩
  | 31 => ⟨S4096x32x2, .f32⟩
  | 32 => ⟨S4096x32x2, .f32⟩
  | 33 => ⟨S_, .f32⟩
  | 34 => ⟨S4096x32x2, .f32⟩
  | 35 => ⟨S4096x32x2, .f32⟩
  | 36 => ⟨S_, .f32⟩
  | 37 => ⟨S4096x32x2, .f32⟩
  | 38 => ⟨S4096x32x2, .f32⟩
  | 39 => ⟨S_, .f32⟩
  | 40 => ⟨S4096x32x2, .f32⟩
  | 41 => ⟨S4096x32x2, .f32⟩
  | 42 => ⟨S4096x32x2x1, .f32⟩
  | 43 => ⟨S4096x32x2x1, .f32⟩
  | 44 => ⟨S4096x32x2x2, .f32⟩
  | 45 => ⟨S4096x32x2x1, .f32⟩
  | 46 => ⟨S4096x32x2x2, .f32⟩
  | 47 => ⟨S4096x32x2x2, .f32⟩
  | 48 => ⟨S4096x32x4, .f32⟩
  | 49 => ⟨S4096x32x4, .f32⟩
  | 50 => ⟨S_, .f32⟩
  | 51 => ⟨S4096x32x4, .f32⟩
  | 52 => ⟨S4096x32x4, .f32⟩
  | 53 => ⟨S4096x32x4, .f32⟩
  | 54 => ⟨S4096x32x4, .f32⟩
  | 55 => ⟨S_, .f32⟩
  | 56 => ⟨S4096x32x4, .f32⟩
  | 57 => ⟨S4096x32x4, .f32⟩
  | 58 => ⟨S_, .f32⟩
  | 59 => ⟨S4096x32x4, .f32⟩
  | 60 => ⟨S4096x32x4, .f32⟩
  | 61 => ⟨S_, .f32⟩
  | 62 => ⟨S4096x32x4, .f32⟩
  | 63 => ⟨S4096x32x4, .f32⟩
  | 64 => ⟨S4096x32x4x1, .f32⟩
  | 65 => ⟨S4096x32x4x1, .f32⟩
  | 66 => ⟨S4096x32x4x2, .f32⟩
  | 67 => ⟨S4096x32x4x1, .f32⟩
  | 68 => ⟨S4096x32x4x2, .f32⟩
  | 69 => ⟨S4096x32x4x2, .f32⟩
  | 70 => ⟨S4096x32x8, .f32⟩
  | 71 => ⟨S4096x32x8, .f32⟩
  | 72 => ⟨S_, .f32⟩
  | 73 => ⟨S4096x32x8, .f32⟩
  | 74 => ⟨S4096x32x8, .f32⟩
  | 75 => ⟨S4096x32x8, .f32⟩
  | 76 => ⟨S4096x32x8, .f32⟩
  | 77 => ⟨S_, .f32⟩
  | 78 => ⟨S4096x32x8, .f32⟩
  | 79 => ⟨S4096x32x8, .f32⟩
  | 80 => ⟨S_, .f32⟩
  | 81 => ⟨S4096x32x8, .f32⟩
  | 82 => ⟨S4096x32x8, .f32⟩
  | 83 => ⟨S_, .f32⟩
  | 84 => ⟨S4096x32x8, .f32⟩
  | 85 => ⟨S4096x32x8, .f32⟩
  | 86 => ⟨S4096x32x8x1, .f32⟩
  | 87 => ⟨S4096x32x8x1, .f32⟩
  | 88 => ⟨S4096x32x8x2, .f32⟩
  | 89 => ⟨S4096x32x8x1, .f32⟩
  | 90 => ⟨S4096x32x8x2, .f32⟩
  | 91 => ⟨S4096x32x8x2, .f32⟩
  | 92 => ⟨S4096x32x16, .f32⟩
  | 93 => ⟨S4096x32x16, .f32⟩
  | 94 => ⟨S_, .f32⟩
  | 95 => ⟨S4096x32x16, .f32⟩
  | 96 => ⟨S4096x32x16, .f32⟩
  | 97 => ⟨S4096x32x16, .f32⟩
  | 98 => ⟨S4096x32x16, .f32⟩
  | 99 => ⟨S_, .f32⟩
  | 100 => ⟨S4096x32x16, .f32⟩
  | 101 => ⟨S4096x32x16, .f32⟩
  | 102 => ⟨S_, .f32⟩
  | 103 => ⟨S4096x32x16, .f32⟩
  | 104 => ⟨S4096x32x16, .f32⟩
  | 105 => ⟨S_, .f32⟩
  | 106 => ⟨S4096x32x16, .f32⟩
  | 107 => ⟨S4096x32x16, .f32⟩
  | 108 => ⟨S4096x32x16x1, .f32⟩
  | 109 => ⟨S4096x32x16x1, .f32⟩
  | 110 => ⟨S4096x32x16x2, .f32⟩
  | 111 => ⟨S4096x32x16x1, .f32⟩
  | 112 => ⟨S4096x32x16x2, .f32⟩
  | 113 => ⟨S4096x32x16x2, .f32⟩
  | 114 => ⟨S4096x32x32, .f32⟩
  | 115 => ⟨S4096x32x32, .f32⟩
  | 116 => ⟨S_, .f32⟩
  | 117 => ⟨S4096x32x32, .f32⟩
  | 118 => ⟨S4096x32x32, .f32⟩
  | 119 => ⟨S4096x32x32, .f32⟩
  | 120 => ⟨S4096x32x32, .f32⟩
  | 121 => ⟨S_, .f32⟩
  | 122 => ⟨S4096x32x32, .f32⟩
  | 123 => ⟨S4096x32x32, .f32⟩
  | 124 => ⟨S_, .f32⟩
  | 125 => ⟨S4096x32x32, .f32⟩
  | 126 => ⟨S4096x32x32, .f32⟩
  | 127 => ⟨S_, .f32⟩
  | _ => ⟨S4096x32736, .f32⟩

abbrev hbmTy0_1 (i : Nat) : BufTy := match i % 128 with
  | 0 => ⟨S4096x32x32, .f32⟩
  | 1 => ⟨S4096x32x32, .f32⟩
  | 2 => ⟨S4096x32x32x1, .f32⟩
  | 3 => ⟨S4096x32x32x1, .f32⟩
  | 4 => ⟨S4096x32x32x2, .f32⟩
  | 5 => ⟨S4096x32x32x1, .f32⟩
  | 6 => ⟨S4096x32x32x2, .f32⟩
  | 7 => ⟨S4096x32x32x2, .f32⟩
  | 8 => ⟨S4096x32x64, .f32⟩
  | 9 => ⟨S4096x32x64, .f32⟩
  | 10 => ⟨S_, .f32⟩
  | 11 => ⟨S4096x32x64, .f32⟩
  | 12 => ⟨S4096x32x64, .f32⟩
  | 13 => ⟨S4096x32x64, .f32⟩
  | 14 => ⟨S4096x32x64, .f32⟩
  | 15 => ⟨S_, .f32⟩
  | 16 => ⟨S4096x32x64, .f32⟩
  | 17 => ⟨S4096x32x64, .f32⟩
  | 18 => ⟨S_, .f32⟩
  | 19 => ⟨S4096x32x64, .f32⟩
  | 20 => ⟨S4096x32x64, .f32⟩
  | 21 => ⟨S_, .f32⟩
  | 22 => ⟨S4096x32x64, .f32⟩
  | 23 => ⟨S4096x32x64, .f32⟩
  | 24 => ⟨S4096x32x64x1, .f32⟩
  | 25 => ⟨S4096x32x64x1, .f32⟩
  | 26 => ⟨S4096x32x64x2, .f32⟩
  | 27 => ⟨S4096x32x64x1, .f32⟩
  | 28 => ⟨S4096x32x64x2, .f32⟩
  | 29 => ⟨S4096x32x64x2, .f32⟩
  | 30 => ⟨S4096x32x128, .f32⟩
  | 31 => ⟨S4096x32x128, .f32⟩
  | 32 => ⟨S_, .f32⟩
  | 33 => ⟨S4096x32x128, .f32⟩
  | 34 => ⟨S4096x32x128, .f32⟩
  | 35 => ⟨S4096x32x128, .f32⟩
  | 36 => ⟨S4096x32x128, .f32⟩
  | 37 => ⟨S_, .f32⟩
  | 38 => ⟨S4096x32x128, .f32⟩
  | 39 => ⟨S4096x32x128, .f32⟩
  | 40 => ⟨S_, .f32⟩
  | 41 => ⟨S4096x32x128, .f32⟩
  | 42 => ⟨S4096x32x128, .f32⟩
  | 43 => ⟨S_, .f32⟩
  | 44 => ⟨S4096x32x128, .f32⟩
  | 45 => ⟨S4096x32x128, .f32⟩
  | 46 => ⟨S4096x32x128x1, .f32⟩
  | 47 => ⟨S4096x32x128x1, .f32⟩
  | 48 => ⟨S4096x32x128x2, .f32⟩
  | 49 => ⟨S4096x32x128x1, .f32⟩
  | 50 => ⟨S4096x32x128x2, .f32⟩
  | 51 => ⟨S4096x32x128x2, .f32⟩
  | 52 => ⟨S4096x32x256, .f32⟩
  | 53 => ⟨S4096x32x256, .f32⟩
  | 54 => ⟨S_, .f32⟩
  | 55 => ⟨S4096x32x256, .f32⟩
  | 56 => ⟨S4096x32x256, .f32⟩
  | 57 => ⟨S4096x32x256, .f32⟩
  | 58 => ⟨S4096x32x256, .f32⟩
  | 59 => ⟨S_, .f32⟩
  | 60 => ⟨S4096x32x256, .f32⟩
  | 61 => ⟨S4096x32x256, .f32⟩
  | 62 => ⟨S_, .f32⟩
  | 63 => ⟨S4096x32x256, .f32⟩
  | 64 => ⟨S4096x32x256, .f32⟩
  | 65 => ⟨S_, .f32⟩
  | 66 => ⟨S4096x32x256, .f32⟩
  | 67 => ⟨S4096x32x256, .f32⟩
  | 68 => ⟨S4096x32x256x1, .f32⟩
  | 69 => ⟨S4096x32x256x1, .f32⟩
  | 70 => ⟨S4096x32x256x2, .f32⟩
  | 71 => ⟨S4096x32x256x1, .f32⟩
  | 72 => ⟨S4096x32x256x2, .f32⟩
  | 73 => ⟨S4096x32x256x2, .f32⟩
  | 74 => ⟨S4096x32x512, .f32⟩
  | 75 => ⟨S4096x32x512, .f32⟩
  | 76 => ⟨S_, .f32⟩
  | 77 => ⟨S4096x32x512, .f32⟩
  | 78 => ⟨S4096x32x512, .f32⟩
  | 79 => ⟨S4096x32x512, .f32⟩
  | 80 => ⟨S4096x32x512, .f32⟩
  | 81 => ⟨S_, .f32⟩
  | 82 => ⟨S4096x32x512, .f32⟩
  | 83 => ⟨S4096x32x512, .f32⟩
  | 84 => ⟨S_, .f32⟩
  | 85 => ⟨S4096x32x512, .f32⟩
  | 86 => ⟨S4096x32x512, .f32⟩
  | 87 => ⟨S_, .f32⟩
  | 88 => ⟨S4096x32x512, .f32⟩
  | 89 => ⟨S4096x32x512, .f32⟩
  | 90 => ⟨S4096x32x512x1, .f32⟩
  | 91 => ⟨S4096x32x512x1, .f32⟩
  | 92 => ⟨S4096x32x512x2, .f32⟩
  | 93 => ⟨S4096x32x512x1, .f32⟩
  | 94 => ⟨S4096x32x512x2, .f32⟩
  | 95 => ⟨S4096x32x512x2, .f32⟩
  | 96 => ⟨S4096x32x1024, .f32⟩
  | 97 => ⟨S_, .f32⟩
  | 98 => ⟨S4096x32x2, .f32⟩
  | 99 => ⟨S4096x32x1, .f32⟩
  | 100 => ⟨S4096x32, .f32⟩
  | _ => ⟨S4096x32736, .f32⟩

abbrev hbmTy (i : Nat) : BufTy := match i / 128 with
  | 0 => hbmTy0_0 i
  | 1 => hbmTy0_1 i
  | _ => ⟨S4096x32736, .f32⟩

abbrev bufTy : (tb : Table) → Fin (tcTables nBuf tb) → BufTy
  | .hbm, ⟨i, _⟩ => hbmTy i
  | _, _ => ⟨S4096x32736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_8 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_9 : Ref sig .tc := ⟨.hbm, 55, rfl⟩
abbrev main_v44 : Ref sig .tc := ⟨.hbm, 56, rfl⟩
abbrev main_v45 : Ref sig .tc := ⟨.hbm, 57, rfl⟩
abbrev main_cst_10 : Ref sig .tc := ⟨.hbm, 58, rfl⟩
abbrev main_v46 : Ref sig .tc := ⟨.hbm, 59, rfl⟩
abbrev main_v47 : Ref sig .tc := ⟨.hbm, 60, rfl⟩
abbrev main_cst_11 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_12 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_13 : Ref sig .tc := ⟨.hbm, 77, rfl⟩
abbrev main_v62 : Ref sig .tc := ⟨.hbm, 78, rfl⟩
abbrev main_v63 : Ref sig .tc := ⟨.hbm, 79, rfl⟩
abbrev main_cst_14 : Ref sig .tc := ⟨.hbm, 80, rfl⟩
abbrev main_v64 : Ref sig .tc := ⟨.hbm, 81, rfl⟩
abbrev main_v65 : Ref sig .tc := ⟨.hbm, 82, rfl⟩
abbrev main_cst_15 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_16 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_17 : Ref sig .tc := ⟨.hbm, 99, rfl⟩
abbrev main_v80 : Ref sig .tc := ⟨.hbm, 100, rfl⟩
abbrev main_v81 : Ref sig .tc := ⟨.hbm, 101, rfl⟩
abbrev main_cst_18 : Ref sig .tc := ⟨.hbm, 102, rfl⟩
abbrev main_v82 : Ref sig .tc := ⟨.hbm, 103, rfl⟩
abbrev main_v83 : Ref sig .tc := ⟨.hbm, 104, rfl⟩
abbrev main_cst_19 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_20 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_21 : Ref sig .tc := ⟨.hbm, 121, rfl⟩
abbrev main_v98 : Ref sig .tc := ⟨.hbm, 122, rfl⟩
abbrev main_v99 : Ref sig .tc := ⟨.hbm, 123, rfl⟩
abbrev main_cst_22 : Ref sig .tc := ⟨.hbm, 124, rfl⟩
abbrev main_v100 : Ref sig .tc := ⟨.hbm, 125, rfl⟩
abbrev main_v101 : Ref sig .tc := ⟨.hbm, 126, rfl⟩
abbrev main_cst_23 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_24 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_25 : Ref sig .tc := ⟨.hbm, 143, rfl⟩
abbrev main_v116 : Ref sig .tc := ⟨.hbm, 144, rfl⟩
abbrev main_v117 : Ref sig .tc := ⟨.hbm, 145, rfl⟩
abbrev main_cst_26 : Ref sig .tc := ⟨.hbm, 146, rfl⟩
abbrev main_v118 : Ref sig .tc := ⟨.hbm, 147, rfl⟩
abbrev main_v119 : Ref sig .tc := ⟨.hbm, 148, rfl⟩
abbrev main_cst_27 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_28 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_29 : Ref sig .tc := ⟨.hbm, 165, rfl⟩
abbrev main_v134 : Ref sig .tc := ⟨.hbm, 166, rfl⟩
abbrev main_v135 : Ref sig .tc := ⟨.hbm, 167, rfl⟩
abbrev main_cst_30 : Ref sig .tc := ⟨.hbm, 168, rfl⟩
abbrev main_v136 : Ref sig .tc := ⟨.hbm, 169, rfl⟩
abbrev main_v137 : Ref sig .tc := ⟨.hbm, 170, rfl⟩
abbrev main_cst_31 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_32 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_33 : Ref sig .tc := ⟨.hbm, 187, rfl⟩
abbrev main_v152 : Ref sig .tc := ⟨.hbm, 188, rfl⟩
abbrev main_v153 : Ref sig .tc := ⟨.hbm, 189, rfl⟩
abbrev main_cst_34 : Ref sig .tc := ⟨.hbm, 190, rfl⟩
abbrev main_v154 : Ref sig .tc := ⟨.hbm, 191, rfl⟩
abbrev main_v155 : Ref sig .tc := ⟨.hbm, 192, rfl⟩
abbrev main_cst_35 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_36 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_37 : Ref sig .tc := ⟨.hbm, 209, rfl⟩
abbrev main_v170 : Ref sig .tc := ⟨.hbm, 210, rfl⟩
abbrev main_v171 : Ref sig .tc := ⟨.hbm, 211, rfl⟩
abbrev main_cst_38 : Ref sig .tc := ⟨.hbm, 212, rfl⟩
abbrev main_v172 : Ref sig .tc := ⟨.hbm, 213, rfl⟩
abbrev main_v173 : Ref sig .tc := ⟨.hbm, 214, rfl⟩
abbrev main_cst_39 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_cst_40 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩

abbrev nD : Nat := 1
abbrev τ : Topo := Topo.v7x

variable {F : FTy → Type} [FloatOps F]

class Facts₀ : Prop where
  shapeCasts_S4096x32736_S4096x32x1023 : S4096x32736.ShapeCasts S4096x32x1023
  slices_S4096x32x1023_S4096x32x1_0_0_0 : S4096x32x1023.Slices ![0, 0, 0] S4096x32x1
  bcast_S_S4096x32x1 : S_.BroadcastsInDim S4096x32x1 (![] : Fin 0 → Fin S4096x32x1.rank)
  bcast_S4096x32x1_S4096x32x1x1_0_1_2 : S4096x32x1.BroadcastsInDim S4096x32x1x1 (![0, 1, 2] : Fin 3 → Fin S4096x32x1x1.rank)
  concatenates_S4096x32x1x1_S4096x32x1x1_S4096x32x1x2_d3 : Shape.Concatenates [S4096x32x1x1, S4096x32x1x1] S4096x32x1x2 3
  bcast_S4096x32x1x1_S4096x32x1x2_0_1_2_3 : S4096x32x1x1.BroadcastsInDim S4096x32x1x2 (![0, 1, 2, 3] : Fin 4 → Fin S4096x32x1x2.rank)
  shapeCasts_S4096x32x1x2_S4096x32x2 : S4096x32x1x2.ShapeCasts S4096x32x2
  slices_S4096x32x1023_S4096x32x2_0_0_1 : S4096x32x1023.Slices ![0, 0, 1] S4096x32x2
  bcast_S_S4096x32x2 : S_.BroadcastsInDim S4096x32x2 (![] : Fin 0 → Fin S4096x32x2.rank)
  bcast_S4096x32x2_S4096x32x2x1_0_1_2 : S4096x32x2.BroadcastsInDim S4096x32x2x1 (![0, 1, 2] : Fin 3 → Fin S4096x32x2x1.rank)
  concatenates_S4096x32x2x1_S4096x32x2x1_S4096x32x2x2_d3 : Shape.Concatenates [S4096x32x2x1, S4096x32x2x1] S4096x32x2x2 3
  bcast_S4096x32x2x1_S4096x32x2x2_0_1_2_3 : S4096x32x2x1.BroadcastsInDim S4096x32x2x2 (![0, 1, 2, 3] : Fin 4 → Fin S4096x32x2x2.rank)
  shapeCasts_S4096x32x2x2_S4096x32x4 : S4096x32x2x2.ShapeCasts S4096x32x4
  slices_S4096x32x1023_S4096x32x4_0_0_3 : S4096x32x1023.Slices ![0, 0, 3] S4096x32x4
  bcast_S_S4096x32x4 : S_.BroadcastsInDim S4096x32x4 (![] : Fin 0 → Fin S4096x32x4.rank)
  bcast_S4096x32x4_S4096x32x4x1_0_1_2 : S4096x32x4.BroadcastsInDim S4096x32x4x1 (![0, 1, 2] : Fin 3 → Fin S4096x32x4x1.rank)
  concatenates_S4096x32x4x1_S4096x32x4x1_S4096x32x4x2_d3 : Shape.Concatenates [S4096x32x4x1, S4096x32x4x1] S4096x32x4x2 3
  bcast_S4096x32x4x1_S4096x32x4x2_0_1_2_3 : S4096x32x4x1.BroadcastsInDim S4096x32x4x2 (![0, 1, 2, 3] : Fin 4 → Fin S4096x32x4x2.rank)
  shapeCasts_S4096x32x4x2_S4096x32x8 : S4096x32x4x2.ShapeCasts S4096x32x8
  slices_S4096x32x1023_S4096x32x8_0_0_7 : S4096x32x1023.Slices ![0, 0, 7] S4096x32x8
  bcast_S_S4096x32x8 : S_.BroadcastsInDim S4096x32x8 (![] : Fin 0 → Fin S4096x32x8.rank)
  bcast_S4096x32x8_S4096x32x8x1_0_1_2 : S4096x32x8.BroadcastsInDim S4096x32x8x1 (![0, 1, 2] : Fin 3 → Fin S4096x32x8x1.rank)
  concatenates_S4096x32x8x1_S4096x32x8x1_S4096x32x8x2_d3 : Shape.Concatenates [S4096x32x8x1, S4096x32x8x1] S4096x32x8x2 3
  bcast_S4096x32x8x1_S4096x32x8x2_0_1_2_3 : S4096x32x8x1.BroadcastsInDim S4096x32x8x2 (![0, 1, 2, 3] : Fin 4 → Fin S4096x32x8x2.rank)
  shapeCasts_S4096x32x8x2_S4096x32x16 : S4096x32x8x2.ShapeCasts S4096x32x16
  slices_S4096x32x1023_S4096x32x16_0_0_15 : S4096x32x1023.Slices ![0, 0, 15] S4096x32x16
  bcast_S_S4096x32x16 : S_.BroadcastsInDim S4096x32x16 (![] : Fin 0 → Fin S4096x32x16.rank)
  bcast_S4096x32x16_S4096x32x16x1_0_1_2 : S4096x32x16.BroadcastsInDim S4096x32x16x1 (![0, 1, 2] : Fin 3 → Fin S4096x32x16x1.rank)
  concatenates_S4096x32x16x1_S4096x32x16x1_S4096x32x16x2_d3 : Shape.Concatenates [S4096x32x16x1, S4096x32x16x1] S4096x32x16x2 3
  bcast_S4096x32x16x1_S4096x32x16x2_0_1_2_3 : S4096x32x16x1.BroadcastsInDim S4096x32x16x2 (![0, 1, 2, 3] : Fin 4 → Fin S4096x32x16x2.rank)
  shapeCasts_S4096x32x16x2_S4096x32x32 : S4096x32x16x2.ShapeCasts S4096x32x32
  slices_S4096x32x1023_S4096x32x32_0_0_31 : S4096x32x1023.Slices ![0, 0, 31] S4096x32x32
  bcast_S_S4096x32x32 : S_.BroadcastsInDim S4096x32x32 (![] : Fin 0 → Fin S4096x32x32.rank)
  bcast_S4096x32x32_S4096x32x32x1_0_1_2 : S4096x32x32.BroadcastsInDim S4096x32x32x1 (![0, 1, 2] : Fin 3 → Fin S4096x32x32x1.rank)
  concatenates_S4096x32x32x1_S4096x32x32x1_S4096x32x32x2_d3 : Shape.Concatenates [S4096x32x32x1, S4096x32x32x1] S4096x32x32x2 3
  bcast_S4096x32x32x1_S4096x32x32x2_0_1_2_3 : S4096x32x32x1.BroadcastsInDim S4096x32x32x2 (![0, 1, 2, 3] : Fin 4 → Fin S4096x32x32x2.rank)
  shapeCasts_S4096x32x32x2_S4096x32x64 : S4096x32x32x2.ShapeCasts S4096x32x64
  slices_S4096x32x1023_S4096x32x64_0_0_63 : S4096x32x1023.Slices ![0, 0, 63] S4096x32x64
  bcast_S_S4096x32x64 : S_.BroadcastsInDim S4096x32x64 (![] : Fin 0 → Fin S4096x32x64.rank)
  bcast_S4096x32x64_S4096x32x64x1_0_1_2 : S4096x32x64.BroadcastsInDim S4096x32x64x1 (![0, 1, 2] : Fin 3 → Fin S4096x32x64x1.rank)
  concatenates_S4096x32x64x1_S4096x32x64x1_S4096x32x64x2_d3 : Shape.Concatenates [S4096x32x64x1, S4096x32x64x1] S4096x32x64x2 3
  bcast_S4096x32x64x1_S4096x32x64x2_0_1_2_3 : S4096x32x64x1.BroadcastsInDim S4096x32x64x2 (![0, 1, 2, 3] : Fin 4 → Fin S4096x32x64x2.rank)
  shapeCasts_S4096x32x64x2_S4096x32x128 : S4096x32x64x2.ShapeCasts S4096x32x128
  slices_S4096x32x1023_S4096x32x128_0_0_127 : S4096x32x1023.Slices ![0, 0, 127] S4096x32x128
  bcast_S_S4096x32x128 : S_.BroadcastsInDim S4096x32x128 (![] : Fin 0 → Fin S4096x32x128.rank)
  bcast_S4096x32x128_S4096x32x128x1_0_1_2 : S4096x32x128.BroadcastsInDim S4096x32x128x1 (![0, 1, 2] : Fin 3 → Fin S4096x32x128x1.rank)
  concatenates_S4096x32x128x1_S4096x32x128x1_S4096x32x128x2_d3 : Shape.Concatenates [S4096x32x128x1, S4096x32x128x1] S4096x32x128x2 3
  bcast_S4096x32x128x1_S4096x32x128x2_0_1_2_3 : S4096x32x128x1.BroadcastsInDim S4096x32x128x2 (![0, 1, 2, 3] : Fin 4 → Fin S4096x32x128x2.rank)
  shapeCasts_S4096x32x128x2_S4096x32x256 : S4096x32x128x2.ShapeCasts S4096x32x256
  slices_S4096x32x1023_S4096x32x256_0_0_255 : S4096x32x1023.Slices ![0, 0, 255] S4096x32x256
  bcast_S_S4096x32x256 : S_.BroadcastsInDim S4096x32x256 (![] : Fin 0 → Fin S4096x32x256.rank)
  bcast_S4096x32x256_S4096x32x256x1_0_1_2 : S4096x32x256.BroadcastsInDim S4096x32x256x1 (![0, 1, 2] : Fin 3 → Fin S4096x32x256x1.rank)
  concatenates_S4096x32x256x1_S4096x32x256x1_S4096x32x256x2_d3 : Shape.Concatenates [S4096x32x256x1, S4096x32x256x1] S4096x32x256x2 3
  bcast_S4096x32x256x1_S4096x32x256x2_0_1_2_3 : S4096x32x256x1.BroadcastsInDim S4096x32x256x2 (![0, 1, 2, 3] : Fin 4 → Fin S4096x32x256x2.rank)
  shapeCasts_S4096x32x256x2_S4096x32x512 : S4096x32x256x2.ShapeCasts S4096x32x512
  slices_S4096x32x1023_S4096x32x512_0_0_511 : S4096x32x1023.Slices ![0, 0, 511] S4096x32x512
  bcast_S_S4096x32x512 : S_.BroadcastsInDim S4096x32x512 (![] : Fin 0 → Fin S4096x32x512.rank)
  bcast_S4096x32x512_S4096x32x512x1_0_1_2 : S4096x32x512.BroadcastsInDim S4096x32x512x1 (![0, 1, 2] : Fin 3 → Fin S4096x32x512x1.rank)
  concatenates_S4096x32x512x1_S4096x32x512x1_S4096x32x512x2_d3 : Shape.Concatenates [S4096x32x512x1, S4096x32x512x1] S4096x32x512x2 3
  bcast_S4096x32x512x1_S4096x32x512x2_0_1_2_3 : S4096x32x512x1.BroadcastsInDim S4096x32x512x2 (![0, 1, 2, 3] : Fin 4 → Fin S4096x32x512x2.rank)
  shapeCasts_S4096x32x512x2_S4096x32x1024 : S4096x32x512x2.ShapeCasts S4096x32x1024
  reducesTo_S4096x32x512x2_S4096x32x2_d2 : S4096x32x512x2.ReducesTo [2] S4096x32x2
  h_S_ : 0 < S_.numel
  slices_S4096x32x2_S4096x32x1_0_0_1 : S4096x32x2.Slices ![0, 0, 1] S4096x32x1
  shapeCasts_S4096x32x1_S4096x32 : S4096x32x1.ShapeCasts S4096x32

variable [Facts₀]

class Facts : Prop extends Facts₀ where

variable [Facts]
-- ==== Proof.SoftTree.lean ====
/-
  A soft binary decision tree, read level by level.

  A tree of depth 10 has 1023 forks, stored level by level: level i (i = 0 … 9) holds 2^i forks, at positions
  2^i - 1 … 2^(i+1) - 2 of a row of logits. The probability of reaching fork k of level i+1 is the probability
  of reaching its parent k / 2 on level i, times the parent's turn σ(s_i · logit) when k is the right child
  (k odd), times 1 - σ(s_i · logit) when it is the left child (k even). Both programs compute these reaching
  probabilities one level after the other, as arrays over (batch row, tree, fork of the level), interleaving
  the two children of each fork by a concatenation along a new last axis of extent 2 followed by a reshape
  that merges the last two axes. This file states one level as a function of natural-number positions (lvl)
  and reads every layout operation the two programs use at explicit coordinates, for any batch extent B and
  any level width w, so that each of the ten levels of either program is one instance.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.SoftTree

open Idealize.ShloMosaic Idealize.ShloMosaic.ValueIdx

/-- Arrays over (batch row, tree, position in a level or in the row of logits). -/
abbrev T3 (B w : ℕ) : Shape := ⟨3, ![B, 32, w]⟩
/-- The same with a trailing axis: of extent 1 (a level about to be paired) or 2 (left child, right child). -/
abbrev T4 (B w c : ℕ) : Shape := ⟨4, ![B, 32, w, c]⟩

/-! ## The layout operations at explicit coordinates -/

section Layout
variable {α : Type}

/-- A window of a row cut along the last axis from position o reads the row at o + k. -/
theorem slice_last {B n w : ℕ} (o : ℕ) (X : (T3 B n).Idx → α) (h : (T3 B n).Slices ![0, 0, o] (T3 B w))
    (b : Fin B) (t : Fin 32) (k : Fin w) (k' : Fin n) (hk : k'.val = o + k.val) :
    extractStridedSlice (T3 B w) ![0, 0, o] X h (ix3 b t k) = X (ix3 b t k') :=
  extractStridedSlice_apply _ _ _ _ _ (fun ax => by
    match ax with
    | ⟨0, _⟩ => exact (Nat.zero_add _).symm
    | ⟨1, _⟩ => exact (Nat.zero_add _).symm
    | ⟨2, _⟩ => exact hk)

/-- A trailing unit axis added by a reshape changes no entry. -/
theorem cast_addLast {B w : ℕ} (x : (T3 B w).Idx → α) (h : (T3 B w).ShapeCasts (T4 B w 1))
    (b : Fin B) (t : Fin 32) (k : Fin w) (u : Fin 1) :
    shapeCast (T4 B w 1) x h (ix4 b t k u) = x (ix3 b t k) :=
  shapeCast_apply x h _ _ (by
    have hu : u.val = 0 := by omega
    rw [Shape.rowMajor_val_four, Shape.rowMajor_val_three]
    show (b.val * 32 + t.val) * w + k.val = ((b.val * 32 + t.val) * w + k.val) * 1 + u.val
    rw [hu, Nat.mul_one, Nat.add_zero])

/-- Merging the last two axes [w, 2] into one of extent 2 w puts entry (k, c) at position 2 k + c: position k'
    of the merged axis is child k' % 2 of fork k' / 2. -/
theorem cast_mergeLast {B w w2 : ℕ} (hw : w2 = 2 * w) (x : (T4 B w 2).Idx → α) (h : (T4 B w 2).ShapeCasts (T3 B w2))
    (b : Fin B) (t : Fin 32) (k' : Fin w2) (k : Fin w) (c : Fin 2) (hk : k.val = k'.val / 2) (hc : c.val = k'.val % 2) :
    shapeCast (T3 B w2) x h (ix3 b t k') = x (ix4 b t k c) :=
  shapeCast_apply x h _ _ (by
    rw [Shape.rowMajor_val_four, Shape.rowMajor_val_three]
    show ((b.val * 32 + t.val) * w + k.val) * 2 + c.val = (b.val * 32 + t.val) * w2 + k'.val
    subst hw
    rw [hk, hc, show (b.val * 32 + t.val) * (2 * w) = ((b.val * 32 + t.val) * w) * 2 by ring]
    omega)

/-- A trailing unit axis added by a broadcast along the three leading axes changes no entry. -/
theorem bcast_addLast {B w : ℕ} (x : (T3 B w).Idx → α) (h : (T3 B w).BroadcastsInDim (T4 B w 1) ![0, 1, 2])
    (b : Fin B) (t : Fin 32) (k : Fin w) (u : Fin 1) :
    broadcastInDim (T4 B w 1) ![0, 1, 2] h x (ix4 b t k u) = x (ix3 b t k) :=
  broadcastInDim_apply _ h x _ _ (fun a => by
    match a with
    | ⟨0, _⟩ => show b.val = if B = 1 then 0 else b.val; split <;> omega
    | ⟨1, _⟩ => show t.val = if 32 = 1 then 0 else t.val; simp
    | ⟨2, _⟩ => show k.val = if w = 1 then 0 else k.val; split <;> omega)

/-- A trailing unit axis broadcast to extent 2 repeats each entry for both children. -/
theorem bcast_pair {B w : ℕ} (x : (T4 B w 1).Idx → α) (h : (T4 B w 1).BroadcastsInDim (T4 B w 2) ![0, 1, 2, 3])
    (b : Fin B) (t : Fin 32) (k : Fin w) (c : Fin 2) (u : Fin 1) :
    broadcastInDim (T4 B w 2) ![0, 1, 2, 3] h x (ix4 b t k c) = x (ix4 b t k u) :=
  broadcastInDim_apply _ h x _ _ (fun a => by
    match a with
    | ⟨0, _⟩ => show b.val = if B = 1 then 0 else b.val; split <;> omega
    | ⟨1, _⟩ => show t.val = if 32 = 1 then 0 else t.val; simp
    | ⟨2, _⟩ => show k.val = if w = 1 then 0 else k.val; split <;> omega
    | ⟨3, _⟩ => show u.val = if 1 = 1 then 0 else c.val; simp)

/-- Two arrays with a trailing unit axis concatenated along it: child 0 reads the first, -/
theorem concat_last_left {B w : ℕ} (x₁ x₂ : (T4 B w 1).Idx → α)
    (h : Shape.Concatenates [T4 B w 1, T4 B w 1] (T4 B w 2) 3)
    (b : Fin B) (t : Fin 32) (k : Fin w) (c : Fin 2) (hc : c.val = 0) (u : Fin 1) :
    concatenate (T4 B w 2) 3 [⟨T4 B w 1, x₁⟩, ⟨T4 B w 1, x₂⟩] h (ix4 b t k c) = x₁ (ix4 b t k u) :=
  concatenate_pair_apply_left 3 x₁ x₂ h _ rfl _ (fun a => by
    match a with
    | ⟨0, _⟩ => rfl
    | ⟨1, _⟩ => rfl
    | ⟨2, _⟩ => rfl
    | ⟨3, _⟩ => show u.val = c.val; omega)

/-- and child 1 reads the second. -/
theorem concat_last_right {B w : ℕ} (x₁ x₂ : (T4 B w 1).Idx → α)
    (h : Shape.Concatenates [T4 B w 1, T4 B w 1] (T4 B w 2) 3)
    (b : Fin B) (t : Fin 32) (k : Fin w) (c : Fin 2) (hc : c.val = 1) (u : Fin 1) :
    concatenate (T4 B w 2) 3 [⟨T4 B w 1, x₁⟩, ⟨T4 B w 1, x₂⟩] h (ix4 b t k c) = x₂ (ix4 b t k u) :=
  concatenate_pair_apply_right 3 x₁ x₂ h _ rfl rfl _ (fun a ha => by
    match a, ha with
    | ⟨0, _⟩, _ => rfl
    | ⟨1, _⟩, _ => rfl
    | ⟨2, _⟩, _ => rfl
    | ⟨3, _⟩, ha => exact absurd rfl ha) (by show u.val + 1 = c.val; omega)

end Layout

/-! ## One level of the tree -/

/-- The word 1.0, kept as the programs print it. -/
abbrev one : EReal := Ideal.ofBits .f32 0x3F800000#32

/-- A fork's turn: the probability of turning right at the fork, the sigmoid of its scaled logit. -/
def turn (s y : EReal) : EReal := Ideal.logistic (s * y)

/-- From the probability p of reaching a fork with logit y: its left child (c = 0) is reached with p (1 - σ), its
    right child with p σ. -/
def branch (p s y : EReal) (c : ℕ) : EReal := if c = 0 then p * (one - turn s y) else p * turn s y

/-- One level: position k is child k % 2 of the fork k / 2 of the level above, whose logit sits at o + k / 2 of
    the row x. -/
def lvl (p : ℕ → EReal) (s : EReal) (o : ℕ) (x : ℕ → EReal) (k : ℕ) : EReal :=
  branch (p (k / 2)) s (x (o + k / 2)) (k % 2)

theorem branch_left (p s y : EReal) (c : ℕ) (hc : c = 0) : branch p s y c = p * (one - turn s y) := by
  rw [branch, if_pos hc]

theorem branch_right (p s y : EReal) (c : ℕ) (hc : c = 1) : branch p s y c = p * turn s y := by
  rw [branch, if_neg (by omega)]

/-- The host's spelling of the sigmoid, 1 / (1 + exp (-z)) with its own division, is the turn. -/
theorem turn_host (s y : EReal) :
    Ideal.div one (one + Ideal.exp (-(s * y))) = turn s y := by
  rw [turn, Ideal.logistic, one, Ideal.ofBits_one_f32]

/-- A row of an array over (batch row, tree, position), as a function of natural-number positions (0 past the end). -/
def rowOf {B n : ℕ} (v : (T3 B n).Idx → EReal) (b : Fin B) (t : Fin 32) (i : ℕ) : EReal :=
  if h : i < n then v (ix3 b t ⟨i, h⟩) else 0

theorem rowOf_apply {B n : ℕ} (v : (T3 B n).Idx → EReal) (b : Fin B) (t : Fin 32) (i : Fin n) :
    rowOf v b t i.val = v (ix3 b t i) := by
  rw [rowOf, dif_pos i.isLt]

end Cert.SoftTree

end
-- ==== Proof.KernelLevel.lean ====
/-
  One level of the tree as the kernel computes it.

  From the reaching probabilities tf of a level (an array over batch row, tree, fork) and the level's turns d, the
  kernel forms the left children tf (1 - d) and the right children tf d, gives each a trailing unit axis, joins
  the two along it and merges the last two axes: position k' of the next level is child k' % 2 of fork k' / 2.
  The turns are the sigmoid of a scale times the level's window of the row of logits.
-/
import proofs.«121229_j82162724372481_2_alg».proof.Proof.SoftTree

noncomputable section

namespace Cert.SoftTree

open Idealize.ShloMosaic Idealize.ShloMosaic.ValueIdx

variable {F : FTy → Type} [FloatOps F]

/-- The turns of a level of width w whose logits start at position o of the row. -/
def kturn {B n w : ℕ} (o : ℕ) (sw : BitVec 32) (v : FVec F (T3 B n) .f32) (hs : (T3 B n).Slices ![0, 0, o] (T3 B w)) :
    FVec F (T3 B w) .f32 :=
  logistic (mulf (broadcast (T3 B w) (Scalar.ofBits .f32 sw)) (extractStridedSlice (T3 B w) ![0, 0, o] v hs))

/-- The next level from a level and its turns. -/
def kstep {B w w2 : ℕ} (tf d : FVec F (T3 B w) .f32) (h1 : (T3 B w).ShapeCasts (T4 B w 1))
    (hc : Shape.Concatenates [T4 B w 1, T4 B w 1] (T4 B w 2) 3) (hm : (T4 B w 2).ShapeCasts (T3 B w2)) :
    FVec F (T3 B w2) .f32 :=
  shapeCast (T3 B w2)
    (concatenate (T4 B w 2) 3
      [⟨T4 B w 1, shapeCast (T4 B w 1) (mulf tf (subf (broadcast (T3 B w) (Scalar.ofBits .f32 0x3F800000#32)) d)) h1⟩,
       ⟨T4 B w 1, shapeCast (T4 B w 1) (mulf tf d) h1⟩] hc) hm

/-- A turn read at a fork: the sigmoid of the scale times the fork's logit. -/
theorem kturn_apply {B n w : ℕ} (o : ℕ) (sw : BitVec 32) (v : FVec Ideal (T3 B n) .f32)
    (hs : (T3 B n).Slices ![0, 0, o] (T3 B w)) (hn : o + w ≤ n) (b : Fin B) (t : Fin 32) (k : Fin w) :
    kturn o sw v hs (ix3 b t k) = turn (Ideal.ofBits .f32 sw) (rowOf v b t (o + k.val)) := by
  have hk : o + k.val < n := by have := k.isLt; omega
  show Ideal.logistic (Ideal.ofBits .f32 sw * extractStridedSlice (T3 B w) ![0, 0, o] v hs (ix3 b t k)) = _
  rw [slice_last o v hs b t k ⟨o + k.val, hk⟩ rfl, turn, ← rowOf_apply v b t ⟨o + k.val, hk⟩]

/-- The next level read at a position: one level of the tree over the level above and its turns. -/
theorem kstep_apply {B w w2 : ℕ} (hw : w2 = 2 * w) (tf d : FVec Ideal (T3 B w) .f32) (h1 : (T3 B w).ShapeCasts (T4 B w 1))
    (hc : Shape.Concatenates [T4 B w 1, T4 B w 1] (T4 B w 2) 3) (hm : (T4 B w 2).ShapeCasts (T3 B w2))
    (p : ℕ → EReal) (s : EReal) (o : ℕ) (x : ℕ → EReal) (b : Fin B) (t : Fin 32)
    (hp : ∀ k : Fin w, tf (ix3 b t k) = p k.val) (hd : ∀ k : Fin w, d (ix3 b t k) = turn s (x (o + k.val)))
    (k' : Fin w2) :
    kstep tf d h1 hc hm (ix3 b t k') = lvl p s o x k'.val := by
  have hk : k'.val / 2 < w := by have := k'.isLt; omega
  have hc2 : k'.val % 2 < 2 := Nat.mod_lt _ (by norm_num)
  unfold kstep
  rw [cast_mergeLast hw _ hm b t k' ⟨k'.val / 2, hk⟩ ⟨k'.val % 2, hc2⟩ rfl rfl]
  rcases Nat.mod_two_eq_zero_or_one k'.val with h0 | h0
  · rw [concat_last_left _ _ hc b t _ _ h0 0, cast_addLast, lvl, branch_left _ _ _ _ h0]
    show tf (ix3 b t ⟨k'.val / 2, hk⟩) * (one - d (ix3 b t ⟨k'.val / 2, hk⟩)) = _
    rw [hp, hd]
  · rw [concat_last_right _ _ hc b t _ _ h0 0, cast_addLast, lvl, branch_right _ _ _ _ h0]
    show tf (ix3 b t ⟨k'.val / 2, hk⟩) * d (ix3 b t ⟨k'.val / 2, hk⟩) = _
    rw [hp, hd]

end Cert.SoftTree

end
-- ==== Proof.Tree.lean ====
/-
  The value of a soft decision tree of depth 10 on one row of 1023 logits.

  Level i uses the logits at positions 2^i - 1 … 2^(i+1) - 2 scaled by 2^(i-9) (the words below are the
  exact powers of two 2^-9 … 2^-1 and 1). reach i is the array of probabilities of reaching each of the 2^i
  forks of level i; the tree's value is the probability of leaving the last level through a right branch: the
  sum over the 512 forks of level 9 of the probability of reaching the fork times its turn.
-/
import proofs.«121229_j82162724372481_2_alg».proof.Proof.SoftTree

noncomputable section

namespace Cert.SoftTree

open Idealize.ShloMosaic

/-- Level 0 is the root alone, reached with probability 1. -/
def reach0 : ℕ → EReal := fun _ => one
def reach1 (x : ℕ → EReal) : ℕ → EReal := lvl reach0 (Ideal.ofBits .f32 0x3B000000#32) 0 x
def reach2 (x : ℕ → EReal) : ℕ → EReal := lvl (reach1 x) (Ideal.ofBits .f32 0x3B800000#32) 1 x
def reach3 (x : ℕ → EReal) : ℕ → EReal := lvl (reach2 x) (Ideal.ofBits .f32 0x3C000000#32) 3 x
def reach4 (x : ℕ → EReal) : ℕ → EReal := lvl (reach3 x) (Ideal.ofBits .f32 0x3C800000#32) 7 x
def reach5 (x : ℕ → EReal) : ℕ → EReal := lvl (reach4 x) (Ideal.ofBits .f32 0x3D000000#32) 15 x
def reach6 (x : ℕ → EReal) : ℕ → EReal := lvl (reach5 x) (Ideal.ofBits .f32 0x3D800000#32) 31 x
def reach7 (x : ℕ → EReal) : ℕ → EReal := lvl (reach6 x) (Ideal.ofBits .f32 0x3E000000#32) 63 x
def reach8 (x : ℕ → EReal) : ℕ → EReal := lvl (reach7 x) (Ideal.ofBits .f32 0x3E800000#32) 127 x
def reach9 (x : ℕ → EReal) : ℕ → EReal := lvl (reach8 x) (Ideal.ofBits .f32 0x3F000000#32) 255 x

/-- The tree's value on the row x. -/
def treeVal (x : ℕ → EReal) : EReal :=
  ∑ k : Fin 512, reach9 x k.val * turn (Ideal.ofBits .f32 0x3F800000#32) (x (511 + k.val))

/-! ## The whole argument: 4096 batch rows, each 32 trees of 1023 logits laid end to end -/

abbrev SArg : Shape := ⟨2, ![4096, 32736]⟩
abbrev SRes : Shape := ⟨2, ![4096, 32]⟩

/-- The row of logits of tree t of batch row r: positions 1023 t … 1023 t + 1022 of row r (0 past the end). -/
def argRow (A : SArg.Idx → EReal) (r : Fin 4096) (t : Fin 32) (i : ℕ) : EReal :=
  if h : i < 1023 then A (ValueIdx.ix2 r ⟨t.val * 1023 + i, by have := t.isLt; omega⟩) else 0

/-- The result array: at (row r, tree t) the value of tree t on its logits in row r. -/
def forest (A : SArg.Idx → EReal) : SRes.Idx → EReal := fun i => treeVal (argRow A (i 0) (i 1))

theorem forest_apply (A : SArg.Idx → EReal) (r : Fin 4096) (t : Fin 32) :
    forest A (ValueIdx.ix2 r t) = treeVal (argRow A r t) := rfl

end Cert.SoftTree

end
-- ==== Proof.KernelValue.lean ====
/-
  The kernel's body as a soft decision tree.

  The body loads a block of 8 batch rows, views each row as 32 trees of 1023 logits, and computes the reaching
  probabilities of the ten levels one after the other (tf0 … tf9 below, each the kernel's level step over the one
  before and the level's turns); its result at (row b, tree t) is the sum over the 512 forks of the last level of
  the reaching probability times the turn: the tree's value on the row of logits of (b, t).
-/
import proofs.«121229_j82162724372481_2_alg».proof.Proof.Gen.KernelIdeal.Skeleton
import proofs.«121229_j82162724372481_2_alg».proof.Proof.KernelLevel
import proofs.«121229_j82162724372481_2_alg».proof.Proof.Tree

noncomputable section

namespace Cert.KernelIdeal.TreeValue

open Idealize.ShloMosaic Idealize.ShloMosaic.ValueIdx Cert.KernelIdeal Cert.KernelIdeal.Gen Cert.SoftTree

variable {F : FTy → Type} [FloatOps F]

/-! ## The ten levels, as the body computes them from the block's logits v (8 rows, 32 trees, 1023 logits) -/

def tf0 : FVec F S8x32x1 .f32 := broadcast S8x32x1 (Scalar.ofBits .f32 0x3F800000#32)
def tf1 (v : FVec F S8x32x1023 .f32) : FVec F S8x32x2 .f32 :=
  kstep tf0 (kturn 0 0x3B000000#32 v slices_S8x32x1023_o0_0_0_S8x32x1)
    shapeCasts_S8x32x1_S8x32x1x1 concatenates_S8x32x1x1_S8x32x1x1_S8x32x1x2_d3 shapeCasts_S8x32x1x2_S8x32x2
def tf2 (v : FVec F S8x32x1023 .f32) : FVec F S8x32x4 .f32 :=
  kstep (tf1 v) (kturn 1 0x3B800000#32 v slices_S8x32x1023_o0_0_1_S8x32x2)
    shapeCasts_S8x32x2_S8x32x2x1 concatenates_S8x32x2x1_S8x32x2x1_S8x32x2x2_d3 shapeCasts_S8x32x2x2_S8x32x4
def tf3 (v : FVec F S8x32x1023 .f32) : FVec F S8x32x8 .f32 :=
  kstep (tf2 v) (kturn 3 0x3C000000#32 v slices_S8x32x1023_o0_0_3_S8x32x4)
    shapeCasts_S8x32x4_S8x32x4x1 concatenates_S8x32x4x1_S8x32x4x1_S8x32x4x2_d3 shapeCasts_S8x32x4x2_S8x32x8
def tf4 (v : FVec F S8x32x1023 .f32) : FVec F S8x32x16 .f32 :=
  kstep (tf3 v) (kturn 7 0x3C800000#32 v slices_S8x32x1023_o0_0_7_S8x32x8)
    shapeCasts_S8x32x8_S8x32x8x1 concatenates_S8x32x8x1_S8x32x8x1_S8x32x8x2_d3 shapeCasts_S8x32x8x2_S8x32x16
def tf5 (v : FVec F S8x32x1023 .f32) : FVec F S8x32x32 .f32 :=
  kstep (tf4 v) (kturn 15 0x3D000000#32 v slices_S8x32x1023_o0_0_15_S8x32x16)
    shapeCasts_S8x32x16_S8x32x16x1 concatenates_S8x32x16x1_S8x32x16x1_S8x32x16x2_d3 shapeCasts_S8x32x16x2_S8x32x32
def tf6 (v : FVec F S8x32x1023 .f32) : FVec F S8x32x64 .f32 :=
  kstep (tf5 v) (kturn 31 0x3D800000#32 v slices_S8x32x1023_o0_0_31_S8x32x32)
    shapeCasts_S8x32x32_S8x32x32x1 concatenates_S8x32x32x1_S8x32x32x1_S8x32x32x2_d3 shapeCasts_S8x32x32x2_S8x32x64
def tf7 (v : FVec F S8x32x1023 .f32) : FVec F S8x32x128 .f32 :=
  kstep (tf6 v) (kturn 63 0x3E000000#32 v slices_S8x32x1023_o0_0_63_S8x32x64)
    shapeCasts_S8x32x64_S8x32x64x1 concatenates_S8x32x64x1_S8x32x64x1_S8x32x64x2_d3 shapeCasts_S8x32x64x2_S8x32x128
def tf8 (v : FVec F S8x32x1023 .f32) : FVec F S8x32x256 .f32 :=
  kstep (tf7 v) (kturn 127 0x3E800000#32 v slices_S8x32x1023_o0_0_127_S8x32x128)
    shapeCasts_S8x32x128_S8x32x128x1 concatenates_S8x32x128x1_S8x32x128x1_S8x32x128x2_d3 shapeCasts_S8x32x128x2_S8x32x256
def tf9 (v : FVec F S8x32x1023 .f32) : FVec F S8x32x512 .f32 :=
  kstep (tf8 v) (kturn 255 0x3F000000#32 v slices_S8x32x1023_o0_0_255_S8x32x256)
    shapeCasts_S8x32x256_S8x32x256x1 concatenates_S8x32x256x1_S8x32x256x1_S8x32x256x2_d3 shapeCasts_S8x32x256x2_S8x32x512

/-- The body's result from its loaded block. -/
def body (v0 : Vec F S8x32736 .f32) : FVec F S8x32 .f32 :=
  k0_pay1 (k0_pay2 v0) (k0_pay7 (k0_pay2 v0) (k0_pay5 v0) (k0_pay6 v0)) (k0_pay8 (k0_pay2 v0))

set_option maxRecDepth 65536 in
/-- The body's result is the lane sum of the last level's reaching probabilities times its turns. -/
theorem body_eq (v0 : Vec F S8x32736 .f32) :
    body v0 = multiReduction .add [2] S8x32
      (mulf (tf9 (k0_pay2 v0)) (kturn 511 0x3F800000#32 (k0_pay2 v0) slices_S8x32x1023_o0_0_511_S8x32x512))
      0x00000000#32 reduces_S8x32x512_S8x32 (.inl rfl) rfl := rfl

/-! ## Each level read at a position: the reaching probabilities of the row of logits of (b, t) -/

section Read
variable (v : FVec Ideal S8x32x1023 .f32) (b : Fin 8) (t : Fin 32)

theorem tf0_apply (k : Fin 1) : tf0 (F := Ideal) (ix3 b t k) = reach0 k.val := rfl
theorem tf1_apply (k : Fin 2) : tf1 v (ix3 b t k) = reach1 (rowOf v b t) k.val :=
  kstep_apply rfl _ _ _ _ _ reach0 _ 0 (rowOf v b t) b t (tf0_apply b t) (kturn_apply 0 _ v _ (by norm_num) b t) k
theorem tf2_apply (k : Fin 4) : tf2 v (ix3 b t k) = reach2 (rowOf v b t) k.val :=
  kstep_apply rfl _ _ _ _ _ (reach1 (rowOf v b t)) _ 1 (rowOf v b t) b t (tf1_apply v b t) (kturn_apply 1 _ v _ (by norm_num) b t) k
theorem tf3_apply (k : Fin 8) : tf3 v (ix3 b t k) = reach3 (rowOf v b t) k.val :=
  kstep_apply rfl _ _ _ _ _ (reach2 (rowOf v b t)) _ 3 (rowOf v b t) b t (tf2_apply v b t) (kturn_apply 3 _ v _ (by norm_num) b t) k
theorem tf4_apply (k : Fin 16) : tf4 v (ix3 b t k) = reach4 (rowOf v b t) k.val :=
  kstep_apply rfl _ _ _ _ _ (reach3 (rowOf v b t)) _ 7 (rowOf v b t) b t (tf3_apply v b t) (kturn_apply 7 _ v _ (by norm_num) b t) k
theorem tf5_apply (k : Fin 32) : tf5 v (ix3 b t k) = reach5 (rowOf v b t) k.val :=
  kstep_apply rfl _ _ _ _ _ (reach4 (rowOf v b t)) _ 15 (rowOf v b t) b t (tf4_apply v b t) (kturn_apply 15 _ v _ (by norm_num) b t) k
theorem tf6_apply (k : Fin 64) : tf6 v (ix3 b t k) = reach6 (rowOf v b t) k.val :=
  kstep_apply rfl _ _ _ _ _ (reach5 (rowOf v b t)) _ 31 (rowOf v b t) b t (tf5_apply v b t) (kturn_apply 31 _ v _ (by norm_num) b t) k
theorem tf7_apply (k : Fin 128) : tf7 v (ix3 b t k) = reach7 (rowOf v b t) k.val :=
  kstep_apply rfl _ _ _ _ _ (reach6 (rowOf v b t)) _ 63 (rowOf v b t) b t (tf6_apply v b t) (kturn_apply 63 _ v _ (by norm_num) b t) k
theorem tf8_apply (k : Fin 256) : tf8 v (ix3 b t k) = reach8 (rowOf v b t) k.val :=
  kstep_apply rfl _ _ _ _ _ (reach7 (rowOf v b t)) _ 127 (rowOf v b t) b t (tf7_apply v b t) (kturn_apply 127 _ v _ (by norm_num) b t) k
theorem tf9_apply (k : Fin 512) : tf9 v (ix3 b t k) = reach9 (rowOf v b t) k.val :=
  kstep_apply rfl _ _ _ _ _ (reach8 (rowOf v b t)) _ 255 (rowOf v b t) b t (tf8_apply v b t) (kturn_apply 255 _ v _ (by norm_num) b t) k

end Read

/-- The body's result at (row b, tree t) is the tree's value on that row of logits. -/
theorem body_apply (v0 : Vec Ideal S8x32736 .f32) (b : Fin 8) (t : Fin 32) :
    body v0 (ix2 b t) = treeVal (rowOf (k0_pay2 v0) b t) := by
  rw [body_eq]
  refine (Ideal.multiReduction_add_single _ 0x00000000#32 reduces_S8x32x512_S8x32 (.inl rfl) rfl (ix2 b t)).trans ?_
  unfold treeVal
  refine Finset.sum_congr rfl (fun (k : Fin 512) _ => ?_)
  exact congrArg₂ (· * ·) (tf9_apply (k0_pay2 v0) b t k)
    (kturn_apply 511 0x3F800000#32 (k0_pay2 v0) slices_S8x32x1023_o0_0_511_S8x32x512 (by norm_num) b t k)

/-- The logits of (row b, tree t) sit at positions 1023 t … 1023 t + 1022 of row b of the loaded block. -/
theorem logits_apply (v0 : Vec Ideal S8x32736 .f32) (b : Fin 8) (t : Fin 32) (n : Fin 1023) (j : Fin 32736)
    (hj : j.val = t.val * 1023 + n.val) : k0_pay2 v0 (ix3 b t n) = v0 (ix2 b j) := by
  unfold k0_pay2
  exact shapeCast_apply v0 _ _ _ (by
    rw [Shape.rowMajor_val_two, Shape.rowMajor_val_three]
    show b.val * 32736 + j.val = (b.val * 32 + t.val) * 1023 + n.val
    omega)

end Cert.KernelIdeal.TreeValue

end
-- ==== Proof.KernelArray.lean ====
/-
  From the kernel's blocks to the whole result array.

  Grid point q loads rows 8 q … 8 q + 7 of the argument (all 32736 columns) and writes back rows 8 q … 8 q + 7 of
  the result (all 32 columns). What it writes at (row b, tree t) of its block is the value of tree t on its logits
  in row 8 q + b of the argument, so each written block is a block of the forest of the argument; the 512 blocks
  tile the 4096 rows, so the result array ends as the forest.
-/
import proofs.«121229_j82162724372481_2_alg».proof.Proof.Gen.KernelIdeal.Value
import proofs.«121229_j82162724372481_2_alg».proof.Proof.KernelValue

noncomputable section

namespace Cert.KernelIdeal.TreeArray

open Cert.KernelIdeal Cert.KernelIdeal.Gen Cert.KernelIdeal.TreeValue Cert.SoftTree
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A block of 8 rows of the argument starting at row 8 q: the body's result on it is rows 8 q … 8 q + 7 of the
    forest. -/
theorem body_block (x0 : Vec Ideal S8x32736 .f32) (A : SArg.Idx → EReal) (q : ℕ) (hq : q < 512)
    (hx : ∀ (b : Fin 8) (j : Fin 32736), x0 (ix2 b j) = A (ix2 ⟨q * 8 + b.val, by have := b.isLt; omega⟩ j))
    (b : Fin 8) (t : Fin 32) :
    body x0 (ix2 b t) = forest A (ix2 ⟨q * 8 + b.val, by have := b.isLt; omega⟩ t) := by
  rw [body_apply, forest_apply]
  congr 1
  funext i
  unfold rowOf argRow
  split
  · next h =>
    rw [logits_apply x0 b t ⟨i, h⟩ ⟨t.val * 1023 + i, by have := t.isLt; omega⟩ rfl, hx]
  · rfl

/-- The printed index maps over the grid: point t loads and writes block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What point t writes back is block t of the forest of the argument. -/
theorem flushed_eq (c : Dev nD) (t : Fin cfg0.N) :
    (dats m 0 c).flushed 1 t = ((cfg0.win 1).blk t).view.read (Elt Ideal) (forest (V m c main_arg0)) := by
  rw [Value.flushed1]
  unfold out0_1
  rw [View.canon_unit_zero hz]
  simp only [View.ld_unit_zero (S := S8x32736) hz]
  obtain ⟨e0, e1, e2, e3⟩ := idx_facts t
  have hq : t.val < 512 := by have := t.isLt; have e : cfg0.N = 512 := N_0; omega
  funext j
  obtain ⟨b, tr, rfl⟩ : ∃ (b : Fin 8) (tr : Fin 32), j = ix2 b tr := ⟨j 0, j 1, eq_ix2 j⟩
  show body (iblk m c 0 t) (ix2 b tr) = forest (V m c main_arg0) (((cfg0.win 1).blk t).view.emb (ix2 b tr))
  refine (body_block (iblk m c 0 t) (V m c main_arg0) t.val hq (fun b' j' => ?_) b tr).trans ?_
  · show V m c main_arg0 (((cfg0.win 0).blk t).view.emb (ix2 b' j')) = V m c main_arg0 (ix2 _ j')
    congr 1
    funext a
    apply Fin.ext
    match a with
    | ⟨0, _⟩ => show win0_0.index t (0 : Fin 2) * 8 + 1 * b'.val = t.val * 8 + b'.val; omega
    | ⟨1, _⟩ => show win0_0.index t (1 : Fin 2) * 32736 + 1 * j'.val = j'.val; omega
  · congr 1
    funext a
    apply Fin.ext
    match a with
    | ⟨0, _⟩ => show t.val * 8 + b.val = win0_1.index t (0 : Fin 2) * 8 + 1 * b.val; omega
    | ⟨1, _⟩ => show tr.val = win0_1.index t (1 : Fin 2) * 32 + 1 * tr.val; omega

/-- An index of the result is in point t's block iff each coordinate is in the block's range on its axis. -/
theorem mem_blk (t : Fin cfg0.N) (i : S4096x32.Idx) :
    i ∈ ((cfg0.win 1).blk t).view.set ↔ ∀ a : Fin 2, win0_1.index t a * S8x32.size a ≤ (i a).val
      ∧ (i a).val < win0_1.index t a * S8x32.size a + S8x32.size a := by
  show i ∈ ((View.whole main_v0).slice (win0_1.rect t)).set ↔ _
  rw [View.set_slice_whole, Rect.mem_set_unit]
  exact Iff.rfl

/-- Every index of the result is in some point's block: row r is in the block of point r / 8. -/
theorem cover (i : S4096x32.Idx) :
    ∃ t : Fin cfg0.N, (cfg0.win 1).flush t = true ∧ i ∈ ((cfg0.win 1).blk t).view.set := by
  have h0 : (i 0).val < 4096 := (i 0).isLt
  have h1 : (i 1).val < 32 := (i 1).isLt
  have hN : (i 0).val / 8 < cfg0.N := by have e : cfg0.N = 512 := N_0; omega
  refine ⟨⟨(i 0).val / 8, hN⟩, flush0_1 _, ?_⟩
  rw [mem_blk]
  obtain ⟨-, -, e2, e3⟩ := idx_facts ⟨(i 0).val / 8, hN⟩
  intro a
  match a with
  | ⟨0, _⟩ =>
    show win0_1.index ⟨(i 0).val / 8, hN⟩ (0 : Fin 2) * 8 ≤ (i 0).val
      ∧ (i 0).val < win0_1.index ⟨(i 0).val / 8, hN⟩ (0 : Fin 2) * 8 + 8
    rw [e2]; show (i 0).val / 8 * 8 ≤ (i 0).val ∧ (i 0).val < (i 0).val / 8 * 8 + 8; omega
  | ⟨1, _⟩ =>
    show win0_1.index ⟨(i 0).val / 8, hN⟩ (1 : Fin 2) * 32 ≤ (i 1).val
      ∧ (i 1).val < win0_1.index ⟨(i 0).val / 8, hN⟩ (1 : Fin 2) * 32 + 32
    rw [e3]; omega

/-- The result array after the run is the forest of the argument. -/
theorem final (c : Dev nD) :
    (dats m 0 c).arrAt 1 cfg0.N = forest (m ((c : Thread nD τ).loc main_arg0)) :=
  (dats m 0 c).arrAt_eq_of_cover 1 (forest (V m c main_arg0)) (fun t _ => flushed_eq m c t) cover

/-- The kernel's run: the result array ends as the forest of the argument, the argument unchanged. -/
theorem run : θ_run defs (onTc (τ := τ) (main (F := Ideal))) ⟨m, fun _ => 0, ρ⟩ fun r => ∀ c : Dev nD,
      r.2.mem ((c : Thread nD τ).loc main_v0) = forest (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.TreeArray

end
-- ==== Proof.HostLevel.lean ====
/-
  One level of the tree as the reference computes it on the host.

  From the reaching probabilities tf of a level and the level's turns d, the reference stacks the complements
  1 - d and the turns d along a new last axis (each first given a trailing unit axis), repeats tf for both
  children, and multiplies: entry (fork k, child c) is tf k times 1 - d k (c = 0) or d k (c = 1). Merging the
  last two axes gives the next level. The host spells the sigmoid as 1 / (1 + exp (-z)).
-/
import proofs.«121229_j82162724372481_2_alg».proof.Proof.SoftTree

noncomputable section

namespace Cert.SoftTree

open Idealize.ShloMosaic Idealize.ShloMosaic.ValueIdx

variable {F : FTy → Type} [FloatOps F]

/-- The shape of a scalar. -/
abbrev S0 : Shape := ⟨0, ![]⟩

/-- The turns of a level of width w whose logits start at position o of the row, in the host's spelling. -/
def hturn {B n w : ℕ} (o : ℕ) (sw : BitVec 32) (v : FVec F (T3 B n) .f32) (hs : (T3 B n).Slices ![0, 0, o] (T3 B w))
    (hb : S0.BroadcastsInDim (T3 B w) ![]) : FVec F (T3 B w) .f32 :=
  Host.divf (broadcastInDim (T3 B w) ![] hb (constant S0 .f32 0x3F800000#32))
    (addf (broadcastInDim (T3 B w) ![] hb (constant S0 .f32 0x3F800000#32))
      (Host.exp (Host.negf (mulf (broadcastInDim (T3 B w) ![] hb (constant S0 .f32 sw))
        (extractStridedSlice (T3 B w) ![0, 0, o] v hs)))))

/-- The two children of every fork of a level, from the level and its turns. -/
def hstep {B w : ℕ} (tf d : FVec F (T3 B w) .f32) (hb : S0.BroadcastsInDim (T3 B w) ![])
    (h1 : (T3 B w).BroadcastsInDim (T4 B w 1) ![0, 1, 2]) (h2 : (T4 B w 1).BroadcastsInDim (T4 B w 2) ![0, 1, 2, 3])
    (hc : Shape.Concatenates [T4 B w 1, T4 B w 1] (T4 B w 2) 3) : FVec F (T4 B w 2) .f32 :=
  mulf (broadcastInDim (T4 B w 2) ![0, 1, 2, 3] h2 (broadcastInDim (T4 B w 1) ![0, 1, 2] h1 tf))
    (concatenate (T4 B w 2) 3
      [⟨T4 B w 1, broadcastInDim (T4 B w 1) ![0, 1, 2] h1
          (subf (broadcastInDim (T3 B w) ![] hb (constant S0 .f32 0x3F800000#32)) d)⟩,
       ⟨T4 B w 1, broadcastInDim (T4 B w 1) ![0, 1, 2] h1 d⟩] hc)

/-- A turn read at a fork: the sigmoid of the scale times the fork's logit. -/
theorem hturn_apply {B n w : ℕ} (o : ℕ) (sw : BitVec 32) (v : FVec Ideal (T3 B n) .f32)
    (hs : (T3 B n).Slices ![0, 0, o] (T3 B w)) (hb : S0.BroadcastsInDim (T3 B w) ![]) (hn : o + w ≤ n)
    (b : Fin B) (t : Fin 32) (k : Fin w) :
    hturn o sw v hs hb (ix3 b t k) = turn (Ideal.ofBits .f32 sw) (rowOf v b t (o + k.val)) := by
  have hk : o + k.val < n := by have := k.isLt; omega
  show Ideal.div one (one + Ideal.exp (-(Ideal.ofBits .f32 sw * extractStridedSlice (T3 B w) ![0, 0, o] v hs (ix3 b t k)))) = _
  rw [slice_last o v hs b t k ⟨o + k.val, hk⟩ rfl, turn_host, ← rowOf_apply v b t ⟨o + k.val, hk⟩]

/-- The children read at (fork, child). -/
theorem hstep_apply {B w : ℕ} (tf d : FVec Ideal (T3 B w) .f32) (hb : S0.BroadcastsInDim (T3 B w) ![])
    (h1 : (T3 B w).BroadcastsInDim (T4 B w 1) ![0, 1, 2]) (h2 : (T4 B w 1).BroadcastsInDim (T4 B w 2) ![0, 1, 2, 3])
    (hc : Shape.Concatenates [T4 B w 1, T4 B w 1] (T4 B w 2) 3)
    (p : ℕ → EReal) (s : EReal) (o : ℕ) (x : ℕ → EReal) (b : Fin B) (t : Fin 32)
    (hp : ∀ k : Fin w, tf (ix3 b t k) = p k.val) (hd : ∀ k : Fin w, d (ix3 b t k) = turn s (x (o + k.val)))
    (k : Fin w) (c : Fin 2) :
    hstep tf d hb h1 h2 hc (ix4 b t k c) = branch (p k.val) s (x (o + k.val)) c.val := by
  unfold hstep
  rw [mulf_apply, bcast_pair _ h2 b t k c 0, bcast_addLast _ h1 b t k 0, hp]
  have hc2 : c.val = 0 ∨ c.val = 1 := by have := c.isLt; omega
  rcases hc2 with h0 | h0
  · rw [concat_last_left _ _ hc b t k c h0 0, bcast_addLast _ h1 b t k 0, branch_left _ _ _ _ h0]
    show p k.val * (one - d (ix3 b t k)) = _
    rw [hd]
  · rw [concat_last_right _ _ hc b t k c h0 0, bcast_addLast _ h1 b t k 0, branch_right _ _ _ _ h0]
    show p k.val * d (ix3 b t k) = _
    rw [hd]

/-- The next level: the children with the last two axes merged, read at a position. -/
theorem hstep_merge_apply {B w w2 : ℕ} (hw : w2 = 2 * w) (tf d : FVec Ideal (T3 B w) .f32)
    (hb : S0.BroadcastsInDim (T3 B w) ![])
    (h1 : (T3 B w).BroadcastsInDim (T4 B w 1) ![0, 1, 2]) (h2 : (T4 B w 1).BroadcastsInDim (T4 B w 2) ![0, 1, 2, 3])
    (hc : Shape.Concatenates [T4 B w 1, T4 B w 1] (T4 B w 2) 3) (hm : (T4 B w 2).ShapeCasts (T3 B w2))
    (p : ℕ → EReal) (s : EReal) (o : ℕ) (x : ℕ → EReal) (b : Fin B) (t : Fin 32)
    (hp : ∀ k : Fin w, tf (ix3 b t k) = p k.val) (hd : ∀ k : Fin w, d (ix3 b t k) = turn s (x (o + k.val)))
    (k' : Fin w2) :
    shapeCast (T3 B w2) (hstep tf d hb h1 h2 hc) hm (ix3 b t k') = lvl p s o x k'.val := by
  have hk : k'.val / 2 < w := by have := k'.isLt; omega
  have hc2 : k'.val % 2 < 2 := Nat.mod_lt _ (by norm_num)
  rw [cast_mergeLast hw _ hm b t k' ⟨k'.val / 2, hk⟩ ⟨k'.val % 2, hc2⟩ rfl rfl,
    hstep_apply tf d hb h1 h2 hc p s o x b t hp hd ⟨k'.val / 2, hk⟩ ⟨k'.val % 2, hc2⟩, lvl]

end Cert.SoftTree

end
-- ==== Proof.HostValue.lean ====
/-
  The reference's result as a soft decision tree.

  The host program views the argument as 4096 rows of 32 trees of 1023 logits (a below), and computes the reaching
  probabilities of the ten levels one after the other: from level rt i and its turns gt i the children ch i, an
  array over (row, tree, fork, child), whose last two axes merged are level rt (i+1). Its result at (row r, tree t)
  is the sum over the 512 forks of the last level of the right child: the tree's value on the row of logits of (r, t).
-/
import proofs.«121229_j82162724372481_2_alg».proof.Proof.Gen.ReferenceIdeal.Run
import proofs.«121229_j82162724372481_2_alg».proof.Proof.HostLevel
import proofs.«121229_j82162724372481_2_alg».proof.Proof.Tree
import Idealize.ShloMosaic.Lib.IdealHost

noncomputable section

namespace Cert.ReferenceIdeal.TreeValue

open Idealize.ShloMosaic Idealize.ShloMosaic.ValueIdx Cert.ReferenceIdeal Cert.ReferenceIdeal.Gen Cert.SoftTree

variable {F : FTy → Type} [FloatOps F]

/-! ## The turns and the levels, as the host computes them from the logits a (4096 rows, 32 trees, 1023 logits) -/

section Levels
variable (a : FVec F S4096x32x1023 .f32)

def tn0 : FVec F S4096x32x1 .f32 := hturn 0 0x3B000000#32 a slices_S4096x32x1023_S4096x32x1_0_0_0 bcast_S_S4096x32x1
def tn1 : FVec F S4096x32x2 .f32 := hturn 1 0x3B800000#32 a slices_S4096x32x1023_S4096x32x2_0_0_1 bcast_S_S4096x32x2
def tn2 : FVec F S4096x32x4 .f32 := hturn 3 0x3C000000#32 a slices_S4096x32x1023_S4096x32x4_0_0_3 bcast_S_S4096x32x4
def tn3 : FVec F S4096x32x8 .f32 := hturn 7 0x3C800000#32 a slices_S4096x32x1023_S4096x32x8_0_0_7 bcast_S_S4096x32x8
def tn4 : FVec F S4096x32x16 .f32 := hturn 15 0x3D000000#32 a slices_S4096x32x1023_S4096x32x16_0_0_15 bcast_S_S4096x32x16
def tn5 : FVec F S4096x32x32 .f32 := hturn 31 0x3D800000#32 a slices_S4096x32x1023_S4096x32x32_0_0_31 bcast_S_S4096x32x32
def tn6 : FVec F S4096x32x64 .f32 := hturn 63 0x3E000000#32 a slices_S4096x32x1023_S4096x32x64_0_0_63 bcast_S_S4096x32x64
def tn7 : FVec F S4096x32x128 .f32 := hturn 127 0x3E800000#32 a slices_S4096x32x1023_S4096x32x128_0_0_127 bcast_S_S4096x32x128
def tn8 : FVec F S4096x32x256 .f32 := hturn 255 0x3F000000#32 a slices_S4096x32x1023_S4096x32x256_0_0_255 bcast_S_S4096x32x256
def tn9 : FVec F S4096x32x512 .f32 := hturn 511 0x3F800000#32 a slices_S4096x32x1023_S4096x32x512_0_0_511 bcast_S_S4096x32x512

def rt0 : FVec F S4096x32x1 .f32 := broadcastInDim S4096x32x1 ![] bcast_S_S4096x32x1 (constant S_ .f32 0x3F800000#32)
def ch0 : FVec F S4096x32x1x2 .f32 :=
  hstep rt0 (tn0 a) bcast_S_S4096x32x1 bcast_S4096x32x1_S4096x32x1x1_0_1_2 bcast_S4096x32x1x1_S4096x32x1x2_0_1_2_3 concatenates_S4096x32x1x1_S4096x32x1x1_S4096x32x1x2_d3
def rt1 : FVec F S4096x32x2 .f32 := shapeCast S4096x32x2 (ch0 a) shapeCasts_S4096x32x1x2_S4096x32x2
def ch1 : FVec F S4096x32x2x2 .f32 :=
  hstep (rt1 a) (tn1 a) bcast_S_S4096x32x2 bcast_S4096x32x2_S4096x32x2x1_0_1_2 bcast_S4096x32x2x1_S4096x32x2x2_0_1_2_3 concatenates_S4096x32x2x1_S4096x32x2x1_S4096x32x2x2_d3
def rt2 : FVec F S4096x32x4 .f32 := shapeCast S4096x32x4 (ch1 a) shapeCasts_S4096x32x2x2_S4096x32x4
def ch2 : FVec F S4096x32x4x2 .f32 :=
  hstep (rt2 a) (tn2 a) bcast_S_S4096x32x4 bcast_S4096x32x4_S4096x32x4x1_0_1_2 bcast_S4096x32x4x1_S4096x32x4x2_0_1_2_3 concatenates_S4096x32x4x1_S4096x32x4x1_S4096x32x4x2_d3
def rt3 : FVec F S4096x32x8 .f32 := shapeCast S4096x32x8 (ch2 a) shapeCasts_S4096x32x4x2_S4096x32x8
def ch3 : FVec F S4096x32x8x2 .f32 :=
  hstep (rt3 a) (tn3 a) bcast_S_S4096x32x8 bcast_S4096x32x8_S4096x32x8x1_0_1_2 bcast_S4096x32x8x1_S4096x32x8x2_0_1_2_3 concatenates_S4096x32x8x1_S4096x32x8x1_S4096x32x8x2_d3
def rt4 : FVec F S4096x32x16 .f32 := shapeCast S4096x32x16 (ch3 a) shapeCasts_S4096x32x8x2_S4096x32x16
def ch4 : FVec F S4096x32x16x2 .f32 :=
  hstep (rt4 a) (tn4 a) bcast_S_S4096x32x16 bcast_S4096x32x16_S4096x32x16x1_0_1_2 bcast_S4096x32x16x1_S4096x32x16x2_0_1_2_3 concatenates_S4096x32x16x1_S4096x32x16x1_S4096x32x16x2_d3
def rt5 : FVec F S4096x32x32 .f32 := shapeCast S4096x32x32 (ch4 a) shapeCasts_S4096x32x16x2_S4096x32x32
def ch5 : FVec F S4096x32x32x2 .f32 :=
  hstep (rt5 a) (tn5 a) bcast_S_S4096x32x32 bcast_S4096x32x32_S4096x32x32x1_0_1_2 bcast_S4096x32x32x1_S4096x32x32x2_0_1_2_3 concatenates_S4096x32x32x1_S4096x32x32x1_S4096x32x32x2_d3
def rt6 : FVec F S4096x32x64 .f32 := shapeCast S4096x32x64 (ch5 a) shapeCasts_S4096x32x32x2_S4096x32x64
def ch6 : FVec F S4096x32x64x2 .f32 :=
  hstep (rt6 a) (tn6 a) bcast_S_S4096x32x64 bcast_S4096x32x64_S4096x32x64x1_0_1_2 bcast_S4096x32x64x1_S4096x32x64x2_0_1_2_3 concatenates_S4096x32x64x1_S4096x32x64x1_S4096x32x64x2_d3
def rt7 : FVec F S4096x32x128 .f32 := shapeCast S4096x32x128 (ch6 a) shapeCasts_S4096x32x64x2_S4096x32x128
def ch7 : FVec F S4096x32x128x2 .f32 :=
  hstep (rt7 a) (tn7 a) bcast_S_S4096x32x128 bcast_S4096x32x128_S4096x32x128x1_0_1_2 bcast_S4096x32x128x1_S4096x32x128x2_0_1_2_3 concatenates_S4096x32x128x1_S4096x32x128x1_S4096x32x128x2_d3
def rt8 : FVec F S4096x32x256 .f32 := shapeCast S4096x32x256 (ch7 a) shapeCasts_S4096x32x128x2_S4096x32x256
def ch8 : FVec F S4096x32x256x2 .f32 :=
  hstep (rt8 a) (tn8 a) bcast_S_S4096x32x256 bcast_S4096x32x256_S4096x32x256x1_0_1_2 bcast_S4096x32x256x1_S4096x32x256x2_0_1_2_3 concatenates_S4096x32x256x1_S4096x32x256x1_S4096x32x256x2_d3
def rt9 : FVec F S4096x32x512 .f32 := shapeCast S4096x32x512 (ch8 a) shapeCasts_S4096x32x256x2_S4096x32x512
def ch9 : FVec F S4096x32x512x2 .f32 :=
  hstep (rt9 a) (tn9 a) bcast_S_S4096x32x512 bcast_S4096x32x512_S4096x32x512x1_0_1_2 bcast_S4096x32x512x1_S4096x32x512x2_0_1_2_3 concatenates_S4096x32x512x1_S4096x32x512x1_S4096x32x512x2_d3

end Levels

/-! ## The run's named terms are these -/

open Cert.ReferenceIdeal.Value StableHlo in
set_option maxRecDepth 65536 in
/-- The children of the last level, as the run names them. -/
theorem res_main_v181_eq (V0 : Valuation τ sig (Elt F)) : res_main_v181 V0 = ch9 (res_main_v0 V0) := rfl

/-! ## Each level read at a position: the reaching probabilities of the row of logits of (r, t) -/

section Read
variable (a : FVec Ideal S4096x32x1023 .f32) (r : Fin 4096) (t : Fin 32)

theorem rt0_apply (k : Fin 1) : rt0 (F := Ideal) (ix3 r t k) = reach0 k.val := rfl
theorem rt1_apply (k : Fin 2) : rt1 a (ix3 r t k) = reach1 (rowOf a r t) k.val :=
  hstep_merge_apply rfl _ _ _ _ _ _ _ reach0 _ 0 (rowOf a r t) r t (rt0_apply r t) (hturn_apply 0 _ a _ _ (by norm_num) r t) k
theorem rt2_apply (k : Fin 4) : rt2 a (ix3 r t k) = reach2 (rowOf a r t) k.val :=
  hstep_merge_apply rfl _ _ _ _ _ _ _ (reach1 (rowOf a r t)) _ 1 (rowOf a r t) r t (rt1_apply a r t) (hturn_apply 1 _ a _ _ (by norm_num) r t) k
theorem rt3_apply (k : Fin 8) : rt3 a (ix3 r t k) = reach3 (rowOf a r t) k.val :=
  hstep_merge_apply rfl _ _ _ _ _ _ _ (reach2 (rowOf a r t)) _ 3 (rowOf a r t) r t (rt2_apply a r t) (hturn_apply 3 _ a _ _ (by norm_num) r t) k
theorem rt4_apply (k : Fin 16) : rt4 a (ix3 r t k) = reach4 (rowOf a r t) k.val :=
  hstep_merge_apply rfl _ _ _ _ _ _ _ (reach3 (rowOf a r t)) _ 7 (rowOf a r t) r t (rt3_apply a r t) (hturn_apply 7 _ a _ _ (by norm_num) r t) k
theorem rt5_apply (k : Fin 32) : rt5 a (ix3 r t k) = reach5 (rowOf a r t) k.val :=
  hstep_merge_apply rfl _ _ _ _ _ _ _ (reach4 (rowOf a r t)) _ 15 (rowOf a r t) r t (rt4_apply a r t) (hturn_apply 15 _ a _ _ (by norm_num) r t) k
theorem rt6_apply (k : Fin 64) : rt6 a (ix3 r t k) = reach6 (rowOf a r t) k.val :=
  hstep_merge_apply rfl _ _ _ _ _ _ _ (reach5 (rowOf a r t)) _ 31 (rowOf a r t) r t (rt5_apply a r t) (hturn_apply 31 _ a _ _ (by norm_num) r t) k
theorem rt7_apply (k : Fin 128) : rt7 a (ix3 r t k) = reach7 (rowOf a r t) k.val :=
  hstep_merge_apply rfl _ _ _ _ _ _ _ (reach6 (rowOf a r t)) _ 63 (rowOf a r t) r t (rt6_apply a r t) (hturn_apply 63 _ a _ _ (by norm_num) r t) k
theorem rt8_apply (k : Fin 256) : rt8 a (ix3 r t k) = reach8 (rowOf a r t) k.val :=
  hstep_merge_apply rfl _ _ _ _ _ _ _ (reach7 (rowOf a r t)) _ 127 (rowOf a r t) r t (rt7_apply a r t) (hturn_apply 127 _ a _ _ (by norm_num) r t) k
theorem rt9_apply (k : Fin 512) : rt9 a (ix3 r t k) = reach9 (rowOf a r t) k.val :=
  hstep_merge_apply rfl _ _ _ _ _ _ _ (reach8 (rowOf a r t)) _ 255 (rowOf a r t) r t (rt8_apply a r t) (hturn_apply 255 _ a _ _ (by norm_num) r t) k

/-- The children of the last level: the right child of fork k is reached with the probability of reaching the fork
    times its turn. -/
theorem ch9_right (k : Fin 512) :
    ch9 a (ix4 r t k (1 : Fin 2))
      = reach9 (rowOf a r t) k.val * turn (Ideal.ofBits .f32 0x3F800000#32) (rowOf a r t (511 + k.val)) :=
  (hstep_apply _ _ _ _ _ _ (reach9 (rowOf a r t)) _ 511 (rowOf a r t) r t (rt9_apply a r t)
    (hturn_apply 511 _ a _ _ (by norm_num) r t) k (1 : Fin 2)).trans (branch_right _ _ _ _ rfl)

/-- The host's result at (row r, tree t) — the children of the last level summed over the forks, the right child
    kept — is the tree's value on that row of logits. -/
theorem result_apply :
    shapeCast S4096x32 (extractStridedSlice S4096x32x1 ![0, 0, 1]
        (Host.reduceAdd (ch9 a) (constant (F := Ideal) S_ .f32 0x00000000#32) reducesTo_S4096x32x512x2_S4096x32x2_d2 h_S_)
        slices_S4096x32x2_S4096x32x1_0_0_1) shapeCasts_S4096x32x1_S4096x32 (ix2 r t)
      = treeVal (rowOf a r t) := by
  have hred : S4096x32x512x2.Reduces [2] S4096x32x2 := by decide
  refine (shapeCast_apply _ shapeCasts_S4096x32x1_S4096x32 (ix2 r t) (ix3 r t (0 : Fin 1)) ?_).trans ?_
  · rw [Shape.rowMajor_val_two, Shape.rowMajor_val_three]
    show (r.val * 32 + t.val) * 1 + 0 = r.val * 32 + t.val
    omega
  refine (slice_last 1 _ slices_S4096x32x2_S4096x32x1_0_0_1 r t (0 : Fin 1) (1 : Fin 2) rfl).trans ?_
  refine (hostReduceAdd_apply (ch9 a) _ reducesTo_S4096x32x512x2_S4096x32x2_d2 h_S_ _).trans ?_
  refine (Ideal.hostReduceAdd_single reducesTo_S4096x32x512x2_S4096x32x2_d2 hred (ch9 a) _ _).trans ?_
  show Ideal.ofBits .f32 0x00000000#32 + _ = _
  rw [Ideal.ofBits_zero_f32, zero_add]
  unfold treeVal
  refine Finset.sum_congr rfl (fun (k : Fin 512) _ => ?_)
  have e : hred.lift (ix3 r t (1 : Fin 2)) k = ix4 r t k (1 : Fin 2) := by
    funext c
    apply Fin.ext
    match c with
    | ⟨0, _⟩ => rfl
    | ⟨1, _⟩ => rfl
    | ⟨2, _⟩ => rfl
    | ⟨3, _⟩ => rfl
  exact (congrArg (ch9 a) e).trans (ch9_right a r t k)

end Read

/-! ## The whole result array -/

/-- The host's view of the argument as rows of 32 trees of 1023 logits: the logits of (row r, tree t) are positions
    1023 t … 1023 t + 1022 of row r. -/
theorem logits_row (A : FVec Ideal S4096x32736 .f32) (r : Fin 4096) (t : Fin 32) :
    rowOf (shapeCast S4096x32x1023 A shapeCasts_S4096x32736_S4096x32x1023) r t = argRow A r t := by
  funext i
  unfold rowOf argRow
  split
  · exact shapeCast_apply A _ _ _ (by
      rw [Shape.rowMajor_val_two, Shape.rowMajor_val_three]
      show r.val * 32736 + (t.val * 1023 + i) = (r.val * 32 + t.val) * 1023 + i
      omega)
  · rfl

open Cert.ReferenceIdeal.Value StableHlo in
/-- The run's result term is the forest of the argument. -/
theorem result_eq (V0 : Valuation τ sig (Elt Ideal)) :
    shapeCast S4096x32 (extractStridedSlice S4096x32x1 ![0, 0, 1]
        (Host.reduceAdd (res_main_v181 V0) (constant (F := Ideal) S_ .f32 0x00000000#32) reducesTo_S4096x32x512x2_S4096x32x2_d2 h_S_)
        slices_S4096x32x2_S4096x32x1_0_0_1) shapeCasts_S4096x32x1_S4096x32
      = forest (V0 (Proc.devRef .tc main_arg0)) := by
  funext i
  obtain ⟨r, t, rfl⟩ : ∃ (r : Fin 4096) (t : Fin 32), i = ix2 r t := ⟨i 0, i 1, eq_ix2 i⟩
  rw [res_main_v181_eq]
  refine (result_apply (res_main_v0 V0) r t).trans ?_
  rw [forest_apply]
  exact congrArg treeVal (logits_row (V0 (Proc.devRef .tc main_arg0)) r t)

end Cert.ReferenceIdeal.TreeValue

end
-- ==== Proof.lean ====
/-
  A forest of soft decision trees: the kernel and its reference compute one function on the extended reals.

  The argument holds, for each of 4096 batch rows and each of 32 trees, the 1023 logits of a complete binary tree of
  depth 10, stored level by level. The probability of reaching a fork is the probability of reaching its parent
  times the parent's turn σ(s · logit) for a right child, 1 - σ(s · logit) for a left child, with s = 2^(i-9) on
  level i; a tree's value is the sum over the forks of the last level of the probability of reaching the fork times
  its turn. Both programs compute the reaching probabilities level by level with the same products in the same
  order. They differ in how they lay the two children side by side (products then a concatenation, against a
  concatenation of the turns then one product), in the spelling of the sigmoid (one operation, against
  1 / (1 + exp (-z)) with the host's division: the same function of every extended real by definition), in the last
  level (the kernel forms only the right children before summing; the reference forms both and keeps the right
  sum), and in that the kernel works on blocks of 8 batch rows. At every index the two results are one expression
  in the same operations up to these spellings and the order of the layout steps, so they agree at every
  extended-real argument, finite or not: the equalities used are the operations' definitions and the coordinates
  of reshapes, slices, broadcasts and concatenations, none of which asks an entry to be finite.

  Proof/SoftTree.lean states one level and reads the layout operations at coordinates; Proof/Tree.lean the tree's
  value and the result array (forest); Proof/KernelLevel.lean and Proof/HostLevel.lean one level of each program;
  Proof/KernelValue.lean and Proof/HostValue.lean the ten levels and the final sum of each; Proof/KernelArray.lean
  the step from the kernel's blocks to the whole array. The kernel's frame and run and the reference's run are the
  generated modules imported below. The idealized kernel is the kernel's own text read on the extended reals, no
  operation rewritten, so the idealization claim is the trivial proposition.
-/
import proofs.«121229_j82162724372481_2_alg».proof.Defs
import proofs.«121229_j82162724372481_2_alg».proof.Proof.Gen.Kernel
import proofs.«121229_j82162724372481_2_alg».proof.Proof.Gen.Kernel.Skeleton
import proofs.«121229_j82162724372481_2_alg».proof.Proof.Gen.Kernel.Launch
import proofs.«121229_j82162724372481_2_alg».proof.Proof.Gen.Kernel.Points
import proofs.«121229_j82162724372481_2_alg».proof.Proof.Gen.Kernel.Frame
import proofs.«121229_j82162724372481_2_alg».proof.Proof.Gen.KernelIdeal
import proofs.«121229_j82162724372481_2_alg».proof.Proof.Gen.KernelIdeal.Skeleton
import proofs.«121229_j82162724372481_2_alg».proof.Proof.Gen.KernelIdeal.Launch
import proofs.«121229_j82162724372481_2_alg».proof.Proof.Gen.KernelIdeal.Points
import proofs.«121229_j82162724372481_2_alg».proof.Proof.Gen.KernelIdeal.Frame
import proofs.«121229_j82162724372481_2_alg».proof.Proof.Gen.ReferenceIdeal
import proofs.«121229_j82162724372481_2_alg».proof.Proof.Gen.Pre_finite_inputs
import proofs.«121229_j82162724372481_2_alg».proof.Proof.Gen.KernelIdeal.Value
import proofs.«121229_j82162724372481_2_alg».proof.Proof.Gen.ReferenceIdeal.Run
import proofs.«121229_j82162724372481_2_alg».proof.Proof.KernelArray
import proofs.«121229_j82162724372481_2_alg».proof.Proof.HostValue
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for its idealization: nothing to state. -/
theorem preserves : Cert.preserves_Kernel_KernelIdeal := trivial

/-- Both programs end with the forest of the argument in their result array. -/
theorem algebraic : Cert.algebraic_KernelIdeal_ReferenceIdeal := by
  intro m ρ m' ρ' _ hagree
  refine ⟨fun c => Cert.SoftTree.forest (m ((c : Thread Cert.KernelIdeal.nD Cert.KernelIdeal.τ).loc Cert.KernelIdeal.main_arg0)),
    Cert.KernelIdeal.TreeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.TreeValue.result_eq]
  exact congrArg Cert.SoftTree.forest (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
